-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x25 : Shape := ⟨2, ![128, 25]⟩
abbrev S25 : Shape := ⟨1, ![25]⟩
abbrev S25x10 : Shape := ⟨2, ![25, 10]⟩
abbrev S10 : Shape := ⟨1, ![10]⟩
abbrev S10x8 : Shape := ⟨2, ![10, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x25 : S_.BroadcastsInDim S128x25 (![] : Fin 0 → Fin S128x25.rank)
  reducesTo_S128x25_S_d0_1 : S128x25.ReducesTo [0, 1] S_
  bcast_S_S25 : S_.BroadcastsInDim S25 (![] : Fin 0 → Fin S25.rank)
  reducesTo_S25_S_d0 : S25.ReducesTo [0] S_
  bcast_S_S25x10 : S_.BroadcastsInDim S25x10 (![] : Fin 0 → Fin S25x10.rank)
  reducesTo_S25x10_S_d0_1 : S25x10.ReducesTo [0, 1] S_
  bcast_S_S10 : S_.BroadcastsInDim S10 (![] : Fin 0 → Fin S10.rank)
  reducesTo_S10_S_d0 : S10.ReducesTo [0] S_
  bcast_S_S10x8 : S_.BroadcastsInDim S10x8 (![] : Fin 0 → Fin S10x8.rank)
  reducesTo_S10x8_S_d0_1 : S10x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S10 .f32) (main_arg6 : FVec F S10x8 .f32) (main_arg7 : FVec F S8 .f32) (main_v13 : IVec S_ 1) (main_v16 : IVec S25x10 1) : IVec S_ 1 :=
  let main_c_5 : IVec S_ 1 := constantI S_ 1 1#1
  let main_v17 : IVec S_ 1 := (fun x v => Host.reduce IntOp.andi x v reducesTo_S25x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x8 .f32 := Host.absf main_arg6
  let main_cst_8 : FVec F S_ .f32 := constant S_ .f32 0x7F800000#32
  let main_v25 : FVec F S10x8 .f32 := broadcastInDim S10x8 ![] bcast_S_S10x8 main_cst_8
  let main_v26 : IVec S10x8 1 := cmpf .olt main_v24 main_v25
  let main_c_9 : IVec S_ 1 := constantI S_ 1 1#1
  let main_v27 : IVec S_ 1 := (fun x v => Host.reduce IntOp.andi x v reducesTo_S10x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x25 .f32) (main_arg3 : FVec F S25 .f32) (main_arg4 : FVec F S25x10 .f32) (main_arg5 : FVec F S10 .f32) (main_arg6 : FVec F S10x8 .f32) (main_arg7 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x25 .f32 := Host.absf main_arg2
  let main_cst_0 : FVec F S_ .f32 := constant S_ .f32 0x7F800000#32
  let main_v5 : FVec F S128x25 .f32 := broadcastInDim S128x25 ![] bcast_S_S128x25 main_cst_0
  let main_v6 : IVec S128x25 1 := cmpf .olt main_v4 main_v5
  let main_c_1 : IVec S_ 1 := constantI S_ 1 1#1
  let main_v7 : IVec S_ 1 := (fun x v => Host.reduce IntOp.andi x v reducesTo_S128x25_S_d0_1 h_S_) main_v6 main_c_1
  let main_v8 : IVec S_ 1 := andi main_v3 main_v7
  let main_v9 : FVec F S25 .f32 := Host.absf main_arg3
  let main_cst_2 : FVec F S_ .f32 := constant S_ .f32 0x7F800000#32
  let main_v10 : FVec F S25 .f32 := broadcastInDim S25 ![] bcast_S_S25 main_cst_2
  let main_v11 : IVec S25 1 := cmpf .olt main_v9 main_v10
  let main_c_3 : IVec S_ 1 := constantI S_ 1 1#1
  let main_v12 : IVec S_ 1 := (fun x v => Host.reduce IntOp.andi x v reducesTo_S25_S_d0 h_S_) main_v11 main_c_3
  let main_v13 : IVec S_ 1 := andi main_v8 main_v12
  let main_v14 : FVec F S25x10 .f32 := Host.absf main_arg4
  let main_cst_4 : FVec F S_ .f32 := constant S_ .f32 0x7F800000#32
  let main_v15 : FVec F S25x10 .f32 := broadcastInDim S25x10 ![] bcast_S_S25x10 main_cst_4
  let main_v16 : IVec S25x10 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x25 : Shape := ⟨2, ![128, 25]⟩
abbrev S25 : Shape := ⟨1, ![25]⟩
abbrev S25x10 : Shape := ⟨2, ![25, 10]⟩
abbrev S10 : Shape := ⟨1, ![10]⟩
abbrev S10x8 : Shape := ⟨2, ![10, 8]⟩
abbrev S8 : Shape := ⟨1, ![8]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x25 : Shape := ⟨2, ![100000, 25]⟩
abbrev S5000x128 : Shape := ⟨2, ![5000, 128]⟩
abbrev S5000x25 : Shape := ⟨2, ![5000, 25]⟩
abbrev S3300000x25 : Shape := ⟨2, ![3300000, 25]⟩
abbrev S1x25 : Shape := ⟨2, ![1, 25]⟩
abbrev S100000x10 : Shape := ⟨2, ![100000, 10]⟩
abbrev S5000x10 : Shape := ⟨2, ![5000, 10]⟩
abbrev S3300000x10 : Shape := ⟨2, ![3300000, 10]⟩
abbrev S1x10 : Shape := ⟨2, ![1, 10]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩

abbrev nBuf : Space → Nat
  | .hbm => 101
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x25, .f32⟩
  | .hbm, ⟨3, _⟩ => ⟨S25, .f32⟩
  | .hbm, ⟨4, _⟩ => ⟨S25x10, .f32⟩
  | .hbm, ⟨5, _⟩ => ⟨S10, .f32⟩
  | .hbm, ⟨6, _⟩ => ⟨S10x8, .f32⟩
  | .hbm, ⟨7, _⟩ => ⟨S8, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x25, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x25, .f32⟩
  | .hbm, ⟨54, _⟩ => ⟨S3300000x1, .f32⟩
  | .hbm, ⟨55, _⟩ => ⟨S3300000x25, .f32⟩
  | .hbm, ⟨56, _⟩ => ⟨S3300000x25, .f32⟩
  | .hbm, ⟨57, _⟩ => ⟨S_, .f32⟩
  | .hbm, ⟨58, _⟩ => ⟨S100000x25, .f32⟩
  | .hbm, ⟨59, _⟩ => ⟨S3300000x1, .i32⟩
  | .hbm, ⟨60, _⟩ => ⟨S100000x25, .f32⟩
  | .hbm, ⟨61, _⟩ => ⟨S1x25, .f32⟩
  | .hbm, ⟨62, _⟩ => ⟨S100000x25, .f32⟩
  | .hbm, ⟨63, _⟩ => ⟨S100000x10, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x10, .f32⟩
  | .hbm, ⟨73, _⟩ => ⟨S3300000x1, .f32⟩
  | .hbm, ⟨74, _⟩ => ⟨S3300000x10, .f32⟩
  | .hbm, ⟨75, _⟩ => ⟨S3300000x10, .f32⟩
  | .hbm, ⟨76, _⟩ => ⟨S_, .f32⟩
  | .hbm, ⟨77, _⟩ => ⟨S100000x10, .f32⟩
  | .hbm, ⟨78, _⟩ => ⟨S3300000x1, .i32⟩
  | .hbm, ⟨79, _⟩ => ⟨S100000x10, .f32⟩
  | .hbm, ⟨80, _⟩ => ⟨S1x10, .f32⟩
  | .hbm, ⟨81, _⟩ => ⟨S100000x10, .f32⟩
  | .hbm, ⟨82, _⟩ => ⟨S100000x8, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000x8, .f32⟩
  | .hbm, ⟨92, _⟩ => ⟨S3300000x1, .f32⟩
  | .hbm, ⟨93, _⟩ => ⟨S3300000x8, .f32⟩
  | .hbm, ⟨94, _⟩ => ⟨S3300000x8, .f32⟩
  | .hbm, ⟨95, _⟩ => ⟨S_, .f32⟩
  | .hbm, ⟨96, _⟩ => ⟨S100000x8, .f32⟩
  | .hbm, ⟨97, _⟩ => ⟨S3300000x1, .i32⟩
  | .hbm, ⟨98, _⟩ => ⟨S100000x8, .f32⟩
  | .hbm, ⟨99, _⟩ => ⟨S1x8, .f32⟩
  | .hbm, ⟨100, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x25, .f32⟩
  | .local _ .vmem, ⟨3, _⟩ => ⟨S5000x25, .f32⟩
  | .local _ .vmem, ⟨4, _⟩ => ⟨S5000x25, .f32⟩
  | .local _ .vmem, ⟨5, _⟩ => ⟨S5000x25, .f32⟩
  | .local _ .vmem, ⟨6, _⟩ => ⟨S5000x25, .f32⟩
  | .local _ .vmem, ⟨7, _⟩ => ⟨S1x25, .f32⟩
  | .local _ .vmem, ⟨8, _⟩ => ⟨S5000x25, .f32⟩
  | .local _ .vmem, ⟨9, _⟩ => ⟨S5000x25, .f32⟩
  | .local _ .vmem, ⟨10, _⟩ => ⟨S5000x25, .f32⟩
  | .local _ .vmem, ⟨11, _⟩ => ⟨S5000x25, .f32⟩
  | .local _ .vmem, ⟨12, _⟩ => ⟨S25x10, .f32⟩
  | .local _ .vmem, ⟨13, _⟩ => ⟨S5000x10, .f32⟩
  | .local _ .vmem, ⟨14, _⟩ => ⟨S5000x10, .f32⟩
  | .local _ .vmem, ⟨15, _⟩ => ⟨S5000x10, .f32⟩
  | .local _ .vmem, ⟨16, _⟩ => ⟨S5000x10, .f32⟩
  | .local _ .vmem, ⟨17, _⟩ => ⟨S1x10, .f32⟩
  | .local _ .vmem, ⟨18, _⟩ => ⟨S5000x10, .f32⟩
  | .local _ .vmem, ⟨19, _⟩ => ⟨S5000x10, .f32⟩
  | .local _ .vmem, ⟨20, _⟩ => ⟨S5000x10, .f32⟩
  | .local _ .vmem, ⟨21, _⟩ => ⟨S5000x10, .f32⟩
  | .local _ .vmem, ⟨22, _⟩ => ⟨S10x8, .f32⟩
  | .local _ .vmem, ⟨23, _⟩ => ⟨S5000x8, .f32⟩
  | .local _ .vmem, ⟨24, _⟩ => ⟨S5000x8, .f32⟩
  | .local _ .vmem, ⟨25, _⟩ => ⟨S5000x8, .f32⟩
  | .local _ .vmem, ⟨26, _⟩ => ⟨S5000x8, .f32⟩
  | .local _ .vmem, ⟨27, _⟩ => ⟨S1x8, .f32⟩
  | .local _ .vmem, ⟨28, _⟩ => ⟨S5000x8, .f32⟩
  | .local _ .vmem, ⟨29, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x25 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x25 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x25 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x25 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S25x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x25_S128x25_0_0 : ∀ a, (![0, 0] : Fin 2 → Nat) a + S128x25.size a ≤ S128x25.size a
  h_S128x25 : 0 < S128x25.numel
  inb_S5000x25_S5000x25_0_0 : ∀ a, (![0, 0] : Fin 2 → Nat) a + S5000x25.size a ≤ S5000x25.size a
  h_S5000x25 : 0 < S5000x25.numel
  bcast_S3300000x1_S3300000x25_0_1 : S3300000x1.BroadcastsInDim S3300000x25 (![0, 1] : Fin 2 → Fin S3300000x25.rank)
  bcast_S_S100000x25 : S_.BroadcastsInDim S100000x25 (![] : Fin 0 → Fin S100000x25.rank)
  shapeCasts_S25_S1x25 : S25.ShapeCasts S1x25
  shapeCasts_S5000x25_S5000x25 : S5000x25.ShapeCasts S5000x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S5000x25 : S1x25.Broadcasts S5000x25
  inb_S25x10_S25x10_0_0 : ∀ a, (![0, 0] : Fin 2 → Nat) a + S25x10.size a ≤ S25x10.size a
  h_S25x10 : 0 < S25x10.numel
  inb_S5000x10_S5000x10_0_0 : ∀ a, (![0, 0] : Fin 2 → Nat) a + S5000x10.size a ≤ S5000x10.size a
  h_S5000x10 : 0 < S5000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S10x8_S10x8_0_0 : ∀ a, (![0, 0] : Fin 2 → Nat) a + S10x8.size a ≤ S10x8.size a
  h_S10x8 : 0 < S10x8.numel
  inb_S5000x8_S5000x8_0_0 : ∀ a, (![0, 0] : Fin 2 → Nat) a + S5000x8.size a ≤ S5000x8.size a
  h_S5000x8 : 0 < S5000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x25_S5000x25_1_0_0_1_n_n_wf : DotDims.WF S5000x128 S128x25 S5000x25 [1] [0] [0] [1] [] []
  gather_S100000x25_S3300000x1_S3300000x25_1_0_n_n_0_1_125_wf : GatherDims.WF S100000x25 S3300000x1 S3300000x25 [1] [0] [] [0] [] 1 ![1, 25]
  scatter_S100000x25_S3300000x1_S3300000x25_1_0_0_1_wf : ScatterDims.WF S100000x25 S3300000x1 S3300000x25 [1] [0] [0] 1
  dot_S5000x25_S25x10_S5000x10_1_0_0_1_n_n_wf : DotDims.WF S5000x25 S25x10 S5000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S5000x10_S10x8_S5000x8_1_0_0_1_n_n_wf : DotDims.WF S5000x10 S10x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x25.size a ≤ S128x25.size a
  hwx0_1 : ∀ i : grid0.Coords, EltTy.bits .f32 = 32 ∨ (Rect.block (s := S128x25) S128x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x25.size a ≤ S100000x25.size a
  hwx0_2 : ∀ i : grid0.Coords, EltTy.bits .f32 = 32 ∨ (Rect.block (s := S100000x25) S5000x25.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x25.size a ≤ S100000x25.size a
  hwx1_0 : ∀ i : grid1.Coords, EltTy.bits .f32 = 32 ∨ (Rect.block (s := S100000x25) S5000x25.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x25.size a ≤ S1x25.size a
  hwx1_1 : ∀ i : grid1.Coords, EltTy.bits .f32 = 32 ∨ (Rect.block (s := S1x25) S1x25.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x25.size a ≤ S100000x25.size a
  hwx1_2 : ∀ i : grid1.Coords, EltTy.bits .f32 = 32 ∨ (Rect.block (s := S100000x25) S5000x25.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x25.size a ≤ S100000x25.size a
  hwx2_0 : ∀ i : grid2.Coords, EltTy.bits .f32 = 32 ∨ (Rect.block (s := S100000x25) S5000x25.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S25x10.size a ≤ S25x10.size a
  hwx2_1 : ∀ i : grid2.Coords, EltTy.bits .f32 = 32 ∨ (Rect.block (s := S25x10) S25x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S100000x10.size a
  hwx3_0 : ∀ i : grid3.Coords, EltTy.bits .f32 = 32 ∨ (Rect.block (s := S100000x10) S5000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x10.size a ≤ S100000x10.size a
  hwx3_2 : ∀ i : grid3.Coords, EltTy.bits .f32 = 32 ∨ (Rect.block (s := S100000x10) S5000x10.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x10.size a ≤ S100000x10.size a
  hwx4_0 : ∀ i : grid4.Coords, EltTy.bits .f32 = 32 ∨ (Rect.block (s := S100000x10) S5000x10.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10x8.size a ≤ S10x8.size a
  hwx4_1 : ∀ i : grid4.Coords, EltTy.bits .f32 = 32 ∨ (Rect.block (s := S10x8) S10x8.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x8.size a ≤ S100000x8.size a
  hwx4_2 : ∀ i : grid4.Coords, EltTy.bits .f32 = 32 ∨ (Rect.block (s := S100000x8) S5000x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x8.size a ≤ S100000x8.size a
  hwx5_0 : ∀ i : grid5.Coords, EltTy.bits .f32 = 32 ∨ (Rect.block (s := S100000x8) S5000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x8.size a ≤ S100000x8.size a
  hwx5_2 : ∀ i : grid5.Coords, EltTy.bits .f32 = 32 ∨ (Rect.block (s := S100000x8) S5000x8.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x25_S5000x25_1_0_0_1_n_n : DotDims S5000x128 S128x25 S5000x25 where
  lhsContracting := [1]
  rhsContracting := [0]
  lhsNonContracting := [0]
  rhsNonContracting := [1]
  lhsBatch := []
  rhsBatch := []
  wf := dot_S5000x128_S128x25_S5000x25_1_0_0_1_n_n_wf
def gather_S100000x25_S3300000x1_S3300000x25_1_0_n_n_0_1_125 : GatherDims S100000x25 S3300000x1 S3300000x25 where
  offsetDims := [1]
  collapsedSliceDims := [0]
  operandBatchingDims := []
  startIndicesBatchingDims := []
  startIndexMap := [0]
  indexVectorDim := 1
  sliceSizes := ![1, 25]
  wf := gather_S100000x25_S3300000x1_S3300000x25_1_0_n_n_0_1_125_wf
def scatter_S100000x25_S3300000x1_S3300000x25_1_0_0_1 : ScatterDims S100000x25 S3300000x1 S3300000x25 where
  updateWindowDims := [1]
  insertedWindowDims := [0]
  scatterDimsToOperandDims := [0]
  indexVectorDim := 1
  wf := scatter_S100000x25_S3300000x1_S3300000x25_1_0_0_1_wf
def dot_S5000x25_S25x10_S5000x10_1_0_0_1_n_n : DotDims S5000x25 S25x10 S5000x10 where
  lhsContracting := [1]
  rhsContracting := [0]
  lhsNonContracting := [0]
  rhsNonContracting := [1]
  lhsBatch := []
  rhsBatch := []
  wf := dot_S5000x25_S25x10_S5000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S5000x10_S10x8_S5000x8_1_0_0_1_n_n : DotDims S5000x10 S10x8 S5000x8 where
  lhsContracting := [1]
  rhsContracting := [0]
  lhsNonContracting := [0]
  rhsNonContracting := [1]
  lhsBatch := []
  rhsBatch := []
  wf := dot_S5000x10_S10x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x25.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x25.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x25.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x25.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x25.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S25x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S10x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x8.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x25 : Shape := ⟨2, ![128, 25]⟩
abbrev S25 : Shape := ⟨1, ![25]⟩
abbrev S25x10 : Shape := ⟨2, ![25, 10]⟩
abbrev S10 : Shape := ⟨1, ![10]⟩
abbrev S10x8 : Shape := ⟨2, ![10, 8]⟩
abbrev S8 : Shape := ⟨1, ![8]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S100000x25 : Shape := ⟨2, ![100000, 25]⟩
abbrev S_ : Shape := ⟨0, ![]⟩
abbrev S3300000x1 : Shape := ⟨2, ![3300000, 1]⟩
abbrev S3300000x25 : Shape := ⟨2, ![3300000, 25]⟩
abbrev S1x25 : Shape := ⟨2, ![1, 25]⟩
abbrev S100000x10 : Shape := ⟨2, ![100000, 10]⟩
abbrev S3300000x10 : Shape := ⟨2, ![3300000, 10]⟩
abbrev S1x10 : Shape := ⟨2, ![1, 10]⟩
abbrev S100000x8 : Shape := ⟨2, ![100000, 8]⟩
abbrev S3300000x8 : Shape := ⟨2, ![3300000, 8]⟩
abbrev S1x8 : Shape := ⟨2, ![1, 8]⟩

abbrev nBuf : Space → Nat
  | .hbm => 182
  | .vmem => 0
  | .smem => 0
  | _ => 0

abbrev hbmTy0_0 (i : Nat) : BufTy := match i % 128 with
  | 0 => ⟨S100000x128, .f32⟩
  | 1 => ⟨S2x3200000, .i32⟩
  | 2 => ⟨S128x25, .f32⟩
  | 3 => ⟨S25, .f32⟩
  | 4 => ⟨S25x10, .f32⟩
  | 5 => ⟨S10, .f32⟩
  | 6 => ⟨S10x8, .f32⟩
  | 7 => ⟨S8, .f32⟩
  | 8 => ⟨S1x3200000, .i32⟩
  | 9 => ⟨S3200000, .i32⟩
  | 10 => ⟨S1x3200000, .i32⟩
  | 11 => ⟨S3200000, .i32⟩
  | 12 => ⟨S100000, .i32⟩
  | 13 => ⟨S3300000, .i32⟩
  | 14 => ⟨S3300000, .i32⟩
  | 15 => ⟨S100000x25, .f32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S3300000, .i32⟩
  | 28 => ⟨S3300000, .i1⟩
  | 29 => ⟨S_, .i32⟩
  | 30 => ⟨S3300000, .i32⟩
  | 31 => ⟨S3300000, .i32⟩
  | 32 => ⟨S3300000, .i32⟩
  | 33 => ⟨S3300000x1, .i32⟩
  | 34 => ⟨S3300000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000x25, .f32⟩
  | 54 => ⟨S3300000x1, .f32⟩
  | 55 => ⟨S3300000x25, .f32⟩
  | 56 => ⟨S3300000x25, .f32⟩
  | 57 => ⟨S_, .f32⟩
  | 58 => ⟨S100000x25, .f32⟩
  | 59 => ⟨S3300000x1, .i32⟩
  | 60 => ⟨S100000x25, .f32⟩
  | 61 => ⟨S1x25, .f32⟩
  | 62 => ⟨S100000x25, .f32⟩
  | 63 => ⟨S100000x25, .f32⟩
  | 64 => ⟨S_, .f32⟩
  | 65 => ⟨S100000x25, .f32⟩
  | 66 => ⟨S100000x25, .f32⟩
  | 67 => ⟨S1x3200000, .i32⟩
  | 68 => ⟨S3200000, .i32⟩
  | 69 => ⟨S1x3200000, .i32⟩
  | 70 => ⟨S3200000, .i32⟩
  | 71 => ⟨S100000, .i32⟩
  | 72 => ⟨S3300000, .i32⟩
  | 73 => ⟨S3300000, .i32⟩
  | 74 => ⟨S100000x10, .f32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S3300000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x10, .f32⟩
  | 113 => ⟨S3300000x1, .f32⟩
  | 114 => ⟨S3300000x10, .f32⟩
  | 115 => ⟨S3300000x10, .f32⟩
  | 116 => ⟨S_, .f32⟩
  | 117 => ⟨S100000x10, .f32⟩
  | 118 => ⟨S3300000x1, .i32⟩
  | 119 => ⟨S100000x10, .f32⟩
  | 120 => ⟨S1x10, .f32⟩
  | 121 => ⟨S100000x10, .f32⟩
  | 122 => ⟨S100000x10, .f32⟩
  | 123 => ⟨S_, .f32⟩
  | 124 => ⟨S100000x10, .f32⟩
  | 125 => ⟨S100000x10, .f32⟩
  | 126 => ⟨S1x3200000, .i32⟩
  | 127 => ⟨S3200000, .i32⟩
  | _ => ⟨S100000x128, .f32⟩

abbrev hbmTy0_1 (i : Nat) : BufTy := match i % 128 with
  | 0 => ⟨S1x3200000, .i32⟩
  | 1 => ⟨S3200000, .i32⟩
  | 2 => ⟨S100000, .i32⟩
  | 3 => ⟨S3300000, .i32⟩
  | 4 => ⟨S3300000, .i32⟩
  | 5 => ⟨S100000x8, .f32⟩
  | 6 => ⟨S_, .f32⟩
  | 7 => ⟨S3300000, .f32⟩
  | 8 => ⟨S_, .f32⟩
  | 9 => ⟨S100000, .f32⟩
  | 10 => ⟨S3300000x1, .i32⟩
  | 11 => ⟨S100000, .f32⟩
  | 12 => ⟨S_, .f32⟩
  | 13 => ⟨S100000, .f32⟩
  | 14 => ⟨S100000, .f32⟩
  | 15 => ⟨S100000, .f32⟩
  | 16 => ⟨S_, .i32⟩
  | 17 => ⟨S3300000, .i32⟩
  | 18 => ⟨S3300000, .i1⟩
  | 19 => ⟨S_, .i32⟩
  | 20 => ⟨S3300000, .i32⟩
  | 21 => ⟨S3300000, .i32⟩
  | 22 => ⟨S3300000, .i32⟩
  | 23 => ⟨S3300000x1, .i32⟩
  | 24 => ⟨S3300000, .f32⟩
  | 25 => ⟨S_, .i32⟩
  | 26 => ⟨S3300000, .i32⟩
  | 27 => ⟨S3300000, .i1⟩
  | 28 => ⟨S_, .i32⟩
  | 29 => ⟨S3300000, .i32⟩
  | 30 => ⟨S3300000, .i32⟩
  | 31 => ⟨S3300000, .i32⟩
  | 32 => ⟨S3300000x1, .i32⟩
  | 33 => ⟨S3300000, .f32⟩
  | 34 => ⟨S3300000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000x8, .f32⟩
  | 44 => ⟨S3300000x1, .f32⟩
  | 45 => ⟨S3300000x8, .f32⟩
  | 46 => ⟨S3300000x8, .f32⟩
  | 47 => ⟨S_, .f32⟩
  | 48 => ⟨S100000x8, .f32⟩
  | 49 => ⟨S3300000x1, .i32⟩
  | 50 => ⟨S100000x8, .f32⟩
  | 51 => ⟨S1x8, .f32⟩
  | 52 => ⟨S100000x8, .f32⟩
  | 53 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_18 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_20 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_21 : Ref sig .tc := ⟨.hbm, 144, rfl⟩
abbrev main_v109 : Ref sig .tc := ⟨.hbm, 145, rfl⟩
abbrev main_v110 : Ref sig .tc := ⟨.hbm, 146, rfl⟩
abbrev main_c_22 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_23 : Ref sig .tc := ⟨.hbm, 153, rfl⟩
abbrev main_v116 : Ref sig .tc := ⟨.hbm, 154, rfl⟩
abbrev main_v117 : Ref sig .tc := ⟨.hbm, 155, rfl⟩
abbrev main_c_24 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_c_25 : Ref sig .tc := ⟨.hbm, 163, rfl⟩
abbrev main_v124 : Ref sig .tc := ⟨.hbm, 164, rfl⟩
abbrev main_v125 : Ref sig .tc := ⟨.hbm, 165, rfl⟩
abbrev main_c_26 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_27 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x25_0_1 : S3300000x1.BroadcastsInDim S3300000x25 (![0, 1] : Fin 2 → Fin S3300000x25.rank)
  bcast_S_S100000x25 : S_.BroadcastsInDim S100000x25 (![] : Fin 0 → Fin S100000x25.rank)
  bcast_S25_S1x25_1 : S25.BroadcastsInDim S1x25 (![1] : Fin 1 → Fin S1x25.rank)
  bcast_S1x25_S100000x25_0_1 : S1x25.BroadcastsInDim S100000x25 (![0, 1] : Fin 2 → Fin S100000x25.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x128_S128x25_S100000x25_1_0_0_1_n_n_wf : DotDims.WF S100000x128 S128x25 S100000x25 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x25_S3300000x1_S3300000x25_1_0_n_n_0_1_125_wf : GatherDims.WF S100000x25 S3300000x1 S3300000x25 [1] [0] [] [0] [] 1 ![1, 25]
  scatter_S100000x25_S3300000x1_S3300000x25_1_0_0_1_wf : ScatterDims.WF S100000x25 S3300000x1 S3300000x25 [1] [0] [0] 1
  dot_S100000x25_S25x10_S100000x10_1_0_0_1_n_n_wf : DotDims.WF S100000x25 S25x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S100000x10_S10x8_S100000x8_1_0_0_1_n_n_wf : DotDims.WF S100000x10 S10x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x128_S128x25_S100000x25_1_0_0_1_n_n : DotDims S100000x128 S128x25 S100000x25 where
  lhsContracting := [1]
  rhsContracting := [0]
  lhsNonContracting := [0]
  rhsNonContracting := [1]
  lhsBatch := []
  rhsBatch := []
  wf := dot_S100000x128_S128x25_S100000x25_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x25_S3300000x1_S3300000x25_1_0_n_n_0_1_125 : GatherDims S100000x25 S3300000x1 S3300000x25 where
  offsetDims := [1]
  collapsedSliceDims := [0]
  operandBatchingDims := []
  startIndicesBatchingDims := []
  startIndexMap := [0]
  indexVectorDim := 1
  sliceSizes := ![1, 25]
  wf := gather_S100000x25_S3300000x1_S3300000x25_1_0_n_n_0_1_125_wf
def scatter_S100000x25_S3300000x1_S3300000x25_1_0_0_1 : ScatterDims S100000x25 S3300000x1 S3300000x25 where
  updateWindowDims := [1]
  insertedWindowDims := [0]
  scatterDimsToOperandDims := [0]
  indexVectorDim := 1
  wf := scatter_S100000x25_S3300000x1_S3300000x25_1_0_0_1_wf
def dot_S100000x25_S25x10_S100000x10_1_0_0_1_n_n : DotDims S100000x25 S25x10 S100000x10 where
  lhsContracting := [1]
  rhsContracting := [0]
  lhsNonContracting := [0]
  rhsNonContracting := [1]
  lhsBatch := []
  rhsBatch := []
  wf := dot_S100000x25_S25x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S100000x10_S10x8_S100000x8_1_0_0_1_n_n : DotDims S100000x10 S10x8 S100000x8 where
  lhsContracting := [1]
  rhsContracting := [0]
  lhsNonContracting := [0]
  rhsNonContracting := [1]
  lhsBatch := []
  rhsBatch := []
  wf := dot_S100000x10_S10x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The idealized kernel's run with its result kept. The program is ten segments — four stretches of host operations and six
  launches of a tiled kernel — and the contents of every buffer at each segment boundary are a fold from the launch memory.
  Every weakly fair execution ends with the result array at the last boundary's contents and the eight arguments as launched.
-/
import proofs.«178085_j44049184588188_1_alg».proof.Proof.Gen.KernelIdeal.Frame

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at what the last launch
    leaves in it (the last boundary's contents) and each argument array as launched. -/
theorem run_result : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Layer

end
-- ==== Proof.RefLayers.lean ====
/-
  The reference read layer by layer. It is three graph convolutions, the first two followed by a rectifier. Every
  convolution multiplies the node features by a weight matrix, sends each node's row along every edge (and along one
  self-loop per node) scaled by the edge's weight, sums the rows arriving at each node, and adds a bias row. The edge
  list with its self-loops and the edge weights depend on the edge table alone, so they are the same in all three
  convolutions: the weight of an edge is the product of the inverse square roots of its two ends' in-degrees (at least 1).
-/
import proofs.«178085_j44049184588188_1_alg».proof.Proof.Gen.ReferenceIdeal.Run

noncomputable section

namespace Cert.ReferenceIdeal.Layers

open Cert.ReferenceIdeal Cert.ReferenceIdeal.Gen Idealize.ShloMosaic Idealize.ShloMosaic.TcCoe Idealize.SL.Sem

variable {F : FTy → Type} [FloatOps F]

/-- One end of every edge: a vector of node numbers, one per edge and then one per self-loop. -/
abbrev Ends (F : FTy → Type) := (⟨S3300000, .i32⟩ : BufTy).Contents (Elt F)
/-- One float per edge (self-loops included). -/
abbrev PerEdge (F : FTy → Type) := (⟨S3300000, .f32⟩ : BufTy).Contents (Elt F)

/-- The edges' sources: row 0 of the edge table, then every node once (its self-loop). -/
def sources (ei : (⟨S2x3200000, .i32⟩ : BufTy).Contents (Elt F)) : Ends F :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The edges' targets: row 1 of the edge table, then every node once. -/
def targets (ei : (⟨S2x3200000, .i32⟩ : BufTy).Contents (Elt F)) : Ends F :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A node number below zero counts back from the last node. -/
def wrapped (v : Ends F) : Ends F :=
  select (cmpi .slt v (broadcastInDim S3300000 ![] bcast_S_S3300000 (constantI S_ 32 0#32))) (addi v (broadcastInDim S3300000 ![] bcast_S_S3300000 (constantI S_ 32 100000#32))) v

/-- The inverse square root of each node's in-degree, the degree counted over the targets and taken as at least 1. -/
def invSqrtDegree (dst : Ends F) : (⟨S100000, .f32⟩ : BufTy).Contents (Elt F) :=
  Host.rsqrt (maximumf (Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))) (broadcastInDim S100000 ![] bcast_S_S100000 (constant S_ .f32 0x3F800000#32)))

/-- An edge's weight: the product of that quantity at its source and at its target. -/
def edgeWeight (src dst : Ends F) : PerEdge F :=
  mulf (Host.gather gather_S100000_S3300000x1_S3300000_n_0_n_n_0_1_1 (invSqrtDegree dst) (broadcastInDim S3300000x1 ![0] bcast_S3300000_S3300000x1_0 (wrapped src))) (Host.gather gather_S100000_S3300000x1_S3300000_n_0_n_n_0_1_1 (invSqrtDegree dst) (broadcastInDim S3300000x1 ![0] bcast_S3300000_S3300000x1_0 (wrapped dst)))

/-- Rows of width 25 sent along the edges: node `n` receives the sum, over the edges into `n`, of the source's row times the
    edge's weight. -/
def spread25 (h : (⟨S100000x25, .f32⟩ : BufTy).Contents (Elt F)) (src dst : Ends F) (w : PerEdge F) : (⟨S100000x25, .f32⟩ : BufTy).Contents (Elt F) :=
  Host.scatterAdd scatter_S100000x25_S3300000x1_S3300000x25_1_0_0_1 (broadcastInDim S100000x25 ![] bcast_S_S100000x25 (constant S_ .f32 0x00000000#32)) (broadcastInDim S3300000x1 ![0] bcast_S3300000_S3300000x1_0 dst) (mulf (Host.gather gather_S100000x25_S3300000x1_S3300000x25_1_0_n_n_0_1_125 h (broadcastInDim S3300000x1 ![0] bcast_S3300000_S3300000x1_0 (wrapped src))) (broadcastInDim S3300000x25 ![0, 1] bcast_S3300000x1_S3300000x25_0_1 (broadcastInDim S3300000x1 ![0] bcast_S3300000_S3300000x1_0 w)))

/-- The same for rows of width 10. -/
def spread10 (h : (⟨S100000x10, .f32⟩ : BufTy).Contents (Elt F)) (src dst : Ends F) (w : PerEdge F) : (⟨S100000x10, .f32⟩ : BufTy).Contents (Elt F) :=
  Host.scatterAdd scatter_S100000x10_S3300000x1_S3300000x10_1_0_0_1 (broadcastInDim S100000x10 ![] bcast_S_S100000x10 (constant S_ .f32 0x00000000#32)) (broadcastInDim S3300000x1 ![0] bcast_S3300000_S3300000x1_0 dst) (mulf (Host.gather gather_S100000x10_S3300000x1_S3300000x10_1_0_n_n_0_1_110 h (broadcastInDim S3300000x1 ![0] bcast_S3300000_S3300000x1_0 (wrapped src))) (broadcastInDim S3300000x10 ![0, 1] bcast_S3300000x1_S3300000x10_0_1 (broadcastInDim S3300000x1 ![0] bcast_S3300000_S3300000x1_0 w)))

/-- The same for rows of width 8. -/
def spread8 (h : (⟨S100000x8, .f32⟩ : BufTy).Contents (Elt F)) (src dst : Ends F) (w : PerEdge F) : (⟨S100000x8, .f32⟩ : BufTy).Contents (Elt F) :=
  Host.scatterAdd scatter_S100000x8_S3300000x1_S3300000x8_1_0_0_1 (broadcastInDim S100000x8 ![] bcast_S_S100000x8 (constant S_ .f32 0x00000000#32)) (broadcastInDim S3300000x1 ![0] bcast_S3300000_S3300000x1_0 dst) (mulf (Host.gather gather_S100000x8_S3300000x1_S3300000x8_1_0_n_n_0_1_18 h (broadcastInDim S3300000x1 ![0] bcast_S3300000_S3300000x1_0 (wrapped src))) (broadcastInDim S3300000x8 ![0, 1] bcast_S3300000x1_S3300000x8_0_1 (broadcastInDim S3300000x1 ![0] bcast_S3300000_S3300000x1_0 w)))

/-- Features times weights, 128 → 25. -/
def times25 (x : (⟨S100000x128, .f32⟩ : BufTy).Contents (Elt F)) (w : (⟨S128x25, .f32⟩ : BufTy).Contents (Elt F)) : (⟨S100000x25, .f32⟩ : BufTy).Contents (Elt F) :=
  Host.dotGeneral dot_S100000x128_S128x25_S100000x25_1_0_0_1_n_n none x w
/-- Features times weights, 25 → 10. -/
def times10 (x : (⟨S100000x25, .f32⟩ : BufTy).Contents (Elt F)) (w : (⟨S25x10, .f32⟩ : BufTy).Contents (Elt F)) : (⟨S100000x10, .f32⟩ : BufTy).Contents (Elt F) :=
  Host.dotGeneral dot_S100000x25_S25x10_S100000x10_1_0_0_1_n_n none x w
/-- Features times weights, 10 → 8. -/
def times8 (x : (⟨S100000x10, .f32⟩ : BufTy).Contents (Elt F)) (w : (⟨S10x8, .f32⟩ : BufTy).Contents (Elt F)) : (⟨S100000x8, .f32⟩ : BufTy).Contents (Elt F) :=
  Host.dotGeneral dot_S100000x10_S10x8_S100000x8_1_0_0_1_n_n none x w

/-- A row [1, 25] added to every node's row, then the rectifier. -/
def rowBiased25 (a : (⟨S100000x25, .f32⟩ : BufTy).Contents (Elt F)) (row : (⟨S1x25, .f32⟩ : BufTy).Contents (Elt F)) : (⟨S100000x25, .f32⟩ : BufTy).Contents (Elt F) :=
  maximumf (addf a (broadcastInDim S100000x25 ![0, 1] bcast_S1x25_S100000x25_0_1 row)) (broadcastInDim S100000x25 ![] bcast_S_S100000x25 (constant S_ .f32 0x00000000#32))
/-- The bias vector, as a row, added to every node's row, then the rectifier: width 25. -/
def biased25 (a : (⟨S100000x25, .f32⟩ : BufTy).Contents (Elt F)) (b : (⟨S25, .f32⟩ : BufTy).Contents (Elt F)) : (⟨S100000x25, .f32⟩ : BufTy).Contents (Elt F) :=
  rowBiased25 a (broadcastInDim S1x25 ![1] bcast_S25_S1x25_1 b)
/-- A row [1, 10] added to every node's row, then the rectifier. -/
def rowBiased10 (a : (⟨S100000x10, .f32⟩ : BufTy).Contents (Elt F)) (row : (⟨S1x10, .f32⟩ : BufTy).Contents (Elt F)) : (⟨S100000x10, .f32⟩ : BufTy).Contents (Elt F) :=
  maximumf (addf a (broadcastInDim S100000x10 ![0, 1] bcast_S1x10_S100000x10_0_1 row)) (broadcastInDim S100000x10 ![] bcast_S_S100000x10 (constant S_ .f32 0x00000000#32))
/-- The bias vector, as a row, added to every node's row, then the rectifier: width 10. -/
def biased10 (a : (⟨S100000x10, .f32⟩ : BufTy).Contents (Elt F)) (b : (⟨S10, .f32⟩ : BufTy).Contents (Elt F)) : (⟨S100000x10, .f32⟩ : BufTy).Contents (Elt F) :=
  rowBiased10 a (broadcastInDim S1x10 ![1] bcast_S10_S1x10_1 b)
/-- A row [1, 8] added to every node's row (the last convolution has no rectifier). -/
def rowBiased8 (a : (⟨S100000x8, .f32⟩ : BufTy).Contents (Elt F)) (row : (⟨S1x8, .f32⟩ : BufTy).Contents (Elt F)) : (⟨S100000x8, .f32⟩ : BufTy).Contents (Elt F) :=
  addf a (broadcastInDim S100000x8 ![0, 1] bcast_S1x8_S100000x8_0_1 row)
/-- The bias vector, as a row, added to every node's row: width 8. -/
def biased8 (a : (⟨S100000x8, .f32⟩ : BufTy).Contents (Elt F)) (b : (⟨S8, .f32⟩ : BufTy).Contents (Elt F)) : (⟨S100000x8, .f32⟩ : BufTy).Contents (Elt F) :=
  rowBiased8 a (broadcastInDim S1x8 ![1] bcast_S8_S1x8_1 b)

/-- The whole network on given edge ends and weights. -/
def network (x : (⟨S100000x128, .f32⟩ : BufTy).Contents (Elt F)) (src dst : Ends F) (ew : PerEdge F)
    (w1 : (⟨S128x25, .f32⟩ : BufTy).Contents (Elt F)) (b1 : (⟨S25, .f32⟩ : BufTy).Contents (Elt F))
    (w2 : (⟨S25x10, .f32⟩ : BufTy).Contents (Elt F)) (b2 : (⟨S10, .f32⟩ : BufTy).Contents (Elt F))
    (w3 : (⟨S10x8, .f32⟩ : BufTy).Contents (Elt F)) (b3 : (⟨S8, .f32⟩ : BufTy).Contents (Elt F)) : (⟨S100000x8, .f32⟩ : BufTy).Contents (Elt F) :=
  biased8 (spread8 (times8 (biased10 (spread10 (times10 (biased25 (spread25 (times25 x w1) src dst ew) b1) w2) src dst ew) b2) w3) src dst ew) b3

set_option maxRecDepth 8192 in
/-- The reference's result is the network on the edge table's ends with their self-loops and the degree weights: its
    printed term repeats the ends and the weights at every use, and names nothing else. -/
theorem res_out0_eq (m : (ℓ : Loc nD τ sig) → Buf (Elt F) ℓ) (c : Dev nD) :
    Cert.ReferenceIdeal.Value.res_out0 m c =
      network (m ((c.tc : Thread nD τ).loc main_arg0))
        (sources (m ((c.tc : Thread nD τ).loc main_arg1))) (targets (m ((c.tc : Thread nD τ).loc main_arg1)))
        (edgeWeight (sources (m ((c.tc : Thread nD τ).loc main_arg1))) (targets (m ((c.tc : Thread nD τ).loc main_arg1))))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  show Cert.ReferenceIdeal.Value.res_main_v139 m c = _
  unfold Cert.ReferenceIdeal.Value.res_main_v139
  rfl

end Cert.ReferenceIdeal.Layers

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Times25.lean ====
/-
  Launch 0 of the kernel: features times weights, 128 → 25, tiled over the nodes. Grid point t loads rows 5000 t … 5000 t + 4999
  of the feature array and the whole weight matrix, multiplies them into a zero accumulator, and writes the product back as
  the same rows of the output. Entry (p, q) of that block is the sum over k of the feature row 5000 t + p at k times the
  weight at (k, q), which is entry (5000 t + p, q) of the product of the whole arrays; the twenty blocks tile the output, so
  after the launch the output array is that whole product.
-/
import proofs.«178085_j44049184588188_1_alg».proof.Proof.Gen.KernelIdeal.Frame
import proofs.«178085_j44049184588188_1_alg».proof.Proof.RefLayers
import proofs.«178085_j44049184588188_1_alg».proof.Proof.LibDotRows
import Idealize.ShloMosaic.Lib.Pipeline.Value
import Idealize.ShloMosaic.Lib.ValueIdx
import Idealize.ShloMosaic.PureOps.Ideal.Laws

noncomputable section

namespace Cert.KernelIdeal.Layer

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.ReferenceIdeal.Layers (times25)

theorem hz0 : (![0, 0] : Fin 2 → Nat) = fun _ => 0 := funext fun a => by fin_cases a <;> rfl

/-- One block's product at (p, q): the sum over k of the row block at (p, k) times the weights at (k, q). Rounding the
    operands to a narrower format changes nothing at the exact values. -/
theorem pay0_apply (x0 : Vec Ideal S5000x128 .f32) (x1 : Vec Ideal S128x25 .f32) (p : Fin 5000) (q : Fin 25) :
    k0_pay1 x0 x1 (ix2 p q) = ∑ k : Fin 128, x0 (ix2 p k) * x1 (ix2 k q) := by
  unfold k0_pay1
  refine (Ideal.matmul_constant_zero_apply dot_S5000x128_S128x25_S5000x25_1_0_0_1_n_n none _ _ (ix2 p q)).trans ?_
  show ∑ c, x0 (dot_S5000x128_S128x25_S5000x25_1_0_0_1_n_n.lhsIdx (ix2 p q) c) * x1 (dot_S5000x128_S128x25_S5000x25_1_0_0_1_n_n.rhsIdx (ix2 p q) c) = _
  dot_rows dot_S5000x128_S128x25_S5000x25_1_0_0_1_n_n S5000x128 S128x25 128

/-- The whole product at (p, q): the same sum over the whole arrays. -/
theorem times25_apply (x : (⟨S100000x128, .f32⟩ : BufTy).Contents (Elt Ideal)) (w : (⟨S128x25, .f32⟩ : BufTy).Contents (Elt Ideal)) (p : Fin 100000) (q : Fin 25) :
    times25 x w (ix2 p q) = ∑ k : Fin 128, x (ix2 p k) * w (ix2 k q) := by
  unfold times25
  simp only [Host.dotGeneral]
  refine (Ideal.dotGeneral_apply Cert.ReferenceIdeal.dot_S100000x128_S128x25_S100000x25_1_0_0_1_n_n none _ x w (ix2 p q)).trans ?_
  dot_rows Cert.ReferenceIdeal.dot_S100000x128_S128x25_S100000x25_1_0_0_1_n_n Cert.ReferenceIdeal.S100000x128 Cert.ReferenceIdeal.S128x25 128

/-- The printed index maps over the grid: the feature and output blocks move with the point along the node axis, the
    weights stay put. -/
theorem idx_facts0 : ∀ t : Fin cfg0.N, win0_0.index t (0 : Fin 2) = t.val
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, q) of the block that point `t` computes is entry (5000 t + p, q) of the whole product: both are the sum over
    k of the feature row 5000 t + p at k times the weights at (k, q). -/
theorem block0 (c : Dev nD) (t : Fin cfg0.N) (p : Fin 5000) (q : Fin 25) :
    k0_pay1 (iblk0 V c 0 t) (iblk0 V c 1 t) (ix2 p q)
      = times25 (V c main_arg0) (V c main_arg2) (((cfg0.win 2).blk t).view.emb (ix2 p q)) := by
  obtain ⟨e0, e1, e2, e3, e4, e5⟩ := idx_facts0 t
  have ht : t.val < 20 := t.isLt
  have hp : p.val < 5000 := p.isLt
  refine (pay0_apply _ _ p q).trans ?_
  have hP : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 25 + 1 * q.val = q.val; omega
  rw [hP]
  refine Eq.trans ?_ (times25_apply _ _ _ q).symm
  refine Finset.sum_congr rfl fun k _ => ?_
  have hk0 : ((cfg0.win 0).blk t).view.emb (ix2 p k) = ix2 (⟨t.val * 5000 + p.val, by omega⟩ : Fin 100000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hk1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 25 + 1 * q.val = q.val; omega
  have key : ∀ (A : S100000x128.Idx → EReal) (W : S128x25.Idx → EReal),
      A (((cfg0.win 0).blk t).view.emb (ix2 p k)) * W (((cfg0.win 1).blk t).view.emb (ix2 k q))
        = A (ix2 (⟨t.val * 5000 + p.val, by omega⟩ : Fin 100000) k) * W (ix2 k q) :=
    fun A W => congrArg₂ (· * ·) (congrArg A hk0) (congrArg W hk1)
  exact key (V c main_arg0) (V c main_arg2)

/-- What point `t` writes back is block `t` of the whole product. -/
theorem flushed0 (c : Dev nD) (t : Fin cfg0.N) :
    (dat0 V c).flushed 2 t = ((cfg0.win 2).blk t).view.read (Elt Ideal) (times25 (V c main_arg0) (V c main_arg2)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x25) hz0]
  refine funext fun (j : S5000x25.Idx) => ?_
  obtain ⟨p, q, rfl⟩ : ∃ (p : Fin 5000) (q : Fin 25), j = ix2 p q := ⟨j 0, j 1, eq_ix2 j⟩
  exact block0 V c t p q

/-- An index of the array is in point `t`'s block iff each coordinate is in the block's range on its axis. -/
theorem mem_blk0 (t : Fin cfg0.N) (i : S100000x25.Idx) :
    i ∈ ((cfg0.win 2).blk t).view.set ↔ ∀ a : Fin 2, win0_2.index t a * S5000x25.size a ≤ (i a).val ∧ (i a).val < win0_2.index t a * S5000x25.size a + S5000x25.size a := by
  show i ∈ ((View.whole main_v29).slice (win0_2.rect t)).set ↔ _
  rw [View.set_slice_whole, Rect.mem_set_unit]
  exact Iff.rfl

/-- Row `r` lies in the block of point `r / 5000`. -/
theorem cover0 (i : S100000x25.Idx) : ∃ t : Fin cfg0.N, (cfg0.win 2).flush t = true ∧ i ∈ ((cfg0.win 2).blk t).view.set := by
  have hi0 : (i 0).val < 100000 := (i 0).isLt
  have hi1 : (i 1).val < 25 := (i 1).isLt
  refine ⟨⟨(i 0).val / 5000, by show (i 0).val / 5000 < 20; omega⟩, flush0_2 _, ?_⟩
  rw [mem_blk0]
  obtain ⟨e0, e1, e2, e3, e4, e5⟩ := idx_facts0 ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 25 ≤ (i 1).val ∧ (i 1).val < win0_2.index _ (1 : Fin 2) * 25 + 25; rw [e5]; omega

/-- The array after the launch: the features times the weights. -/
theorem final0 (c : Dev nD) : (dat0 V c).arrAt 2 cfg0.N = times25 (V c main_arg0) (V c main_arg2) :=
  (dat0 V c).arrAt_eq_of_cover 2 _ (fun t _ => flushed0 V c t) cover0

end Cert.KernelIdeal.Layer

end
-- ==== Proof.Times10.lean ====
/-
  Launch 2 of the kernel: features times weights, 25 → 10, tiled over the nodes. Grid point t loads rows 5000 t … 5000 t + 4999
  of the feature array and the whole weight matrix, multiplies them into a zero accumulator, and writes the product back as
  the same rows of the output. Entry (p, q) of that block is the sum over k of the feature row 5000 t + p at k times the
  weight at (k, q), which is entry (5000 t + p, q) of the product of the whole arrays; the twenty blocks tile the output, so
  after the launch the output array is that whole product.
-/
import proofs.«178085_j44049184588188_1_alg».proof.Proof.Gen.KernelIdeal.Frame
import proofs.«178085_j44049184588188_1_alg».proof.Proof.RefLayers
import proofs.«178085_j44049184588188_1_alg».proof.Proof.LibDotRows
import Idealize.ShloMosaic.Lib.Pipeline.Value
import Idealize.ShloMosaic.Lib.ValueIdx
import Idealize.ShloMosaic.PureOps.Ideal.Laws

noncomputable section

namespace Cert.KernelIdeal.Layer

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.ReferenceIdeal.Layers (times10)

theorem hz2 : (![0, 0] : Fin 2 → Nat) = fun _ => 0 := funext fun a => by fin_cases a <;> rfl

/-- One block's product at (p, q): the sum over k of the row block at (p, k) times the weights at (k, q). Rounding the
    operands to a narrower format changes nothing at the exact values. -/
theorem pay2_apply (x0 : Vec Ideal S5000x25 .f32) (x1 : Vec Ideal S25x10 .f32) (p : Fin 5000) (q : Fin 10) :
    k2_pay1 x0 x1 (ix2 p q) = ∑ k : Fin 25, x0 (ix2 p k) * x1 (ix2 k q) := by
  unfold k2_pay1
  simp only [shapeCast_self]
  refine (Ideal.matmul_constant_zero_apply dot_S5000x25_S25x10_S5000x10_1_0_0_1_n_n none _ _ (ix2 p q)).trans ?_
  show ∑ c, x0 (dot_S5000x25_S25x10_S5000x10_1_0_0_1_n_n.lhsIdx (ix2 p q) c) * x1 (dot_S5000x25_S25x10_S5000x10_1_0_0_1_n_n.rhsIdx (ix2 p q) c) = _
  dot_rows dot_S5000x25_S25x10_S5000x10_1_0_0_1_n_n S5000x25 S25x10 25

/-- The whole product at (p, q): the same sum over the whole arrays. -/
theorem times10_apply (x : (⟨S100000x25, .f32⟩ : BufTy).Contents (Elt Ideal)) (w : (⟨S25x10, .f32⟩ : BufTy).Contents (Elt Ideal)) (p : Fin 100000) (q : Fin 10) :
    times10 x w (ix2 p q) = ∑ k : Fin 25, x (ix2 p k) * w (ix2 k q) := by
  unfold times10
  simp only [Host.dotGeneral]
  refine (Ideal.dotGeneral_apply Cert.ReferenceIdeal.dot_S100000x25_S25x10_S100000x10_1_0_0_1_n_n none _ x w (ix2 p q)).trans ?_
  dot_rows Cert.ReferenceIdeal.dot_S100000x25_S25x10_S100000x10_1_0_0_1_n_n Cert.ReferenceIdeal.S100000x25 Cert.ReferenceIdeal.S25x10 25

/-- The printed index maps over the grid: the feature and output blocks move with the point along the node axis, the
    weights stay put. -/
theorem idx_facts2 : ∀ t : Fin cfg2.N, win2_0.index t (0 : Fin 2) = t.val
    ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Entry (p, q) of the block that point `t` computes is entry (5000 t + p, q) of the whole product: both are the sum over
    k of the feature row 5000 t + p at k times the weights at (k, q). -/
theorem block2 (c : Dev nD) (t : Fin cfg2.N) (p : Fin 5000) (q : Fin 10) :
    k2_pay1 (iblk2 V c 0 t) (iblk2 V c 1 t) (ix2 p q)
      = times10 (V c main_v44) (V c main_arg4) (((cfg2.win 2).blk t).view.emb (ix2 p q)) := by
  obtain ⟨e0, e1, e2, e3, e4, e5⟩ := idx_facts2 t
  have ht : t.val < 20 := t.isLt
  have hp : p.val < 5000 := p.isLt
  refine (pay2_apply _ _ p q).trans ?_
  have hP : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 10 + 1 * q.val = q.val; omega
  rw [hP]
  refine Eq.trans ?_ (times10_apply _ _ _ q).symm
  refine Finset.sum_congr rfl fun k _ => ?_
  have hk0 : ((cfg2.win 0).blk t).view.emb (ix2 p k) = ix2 (⟨t.val * 5000 + p.val, by omega⟩ : Fin 100000) k := by
    funext a; apply Fin.ext
    match a with
    | ⟨0, _⟩ => show win2_0.index t (0 : Fin 2) * 5000 + 1 * p.val = t.val * 5000 + p.val; omega
    | ⟨1, _⟩ => show win2_0.index t (1 : Fin 2) * 25 + 1 * k.val = k.val; omega
  have hk1 : ((cfg2.win 1).blk t).view.emb (ix2 k q) = ix2 k q := by
    funext a; apply Fin.ext
    match a with
    | ⟨0, _⟩ => show win2_1.index t (0 : Fin 2) * 25 + 1 * k.val = k.val; omega
    | ⟨1, _⟩ => show win2_1.index t (1 : Fin 2) * 10 + 1 * q.val = q.val; omega
  have key : ∀ (A : S100000x25.Idx → EReal) (W : S25x10.Idx → EReal),
      A (((cfg2.win 0).blk t).view.emb (ix2 p k)) * W (((cfg2.win 1).blk t).view.emb (ix2 k q))
        = A (ix2 (⟨t.val * 5000 + p.val, by omega⟩ : Fin 100000) k) * W (ix2 k q) :=
    fun A W => congrArg₂ (· * ·) (congrArg A hk0) (congrArg W hk1)
  exact key (V c main_v44) (V c main_arg4)

/-- What point `t` writes back is block `t` of the whole product. -/
theorem flushed2 (c : Dev nD) (t : Fin cfg2.N) :
    (dat2 V c).flushed 2 t = ((cfg2.win 2).blk t).view.read (Elt Ideal) (times10 (V c main_v44) (V c main_arg4)) := by
  show (cfg2.win 2).cut (grid2.coords t) ((dat2 V c).after 2 t) = _
  rw [after2_2]
  unfold out2_2
  rw [View.canon_unit_zero hz2]
  simp only [View.ld_unit_zero (S := S5000x25) hz2, View.ld_unit_zero (S := S25x10) hz2]
  refine funext fun (j : S5000x10.Idx) => ?_
  obtain ⟨p, q, rfl⟩ : ∃ (p : Fin 5000) (q : Fin 10), j = ix2 p q := ⟨j 0, j 1, eq_ix2 j⟩
  exact block2 V c t p q

/-- An index of the array is in point `t`'s block iff each coordinate is in the block's range on its axis. -/
theorem mem_blk2 (t : Fin cfg2.N) (i : S100000x10.Idx) :
    i ∈ ((cfg2.win 2).blk t).view.set ↔ ∀ a : Fin 2, win2_2.index t a * S5000x10.size a ≤ (i a).val ∧ (i a).val < win2_2.index t a * S5000x10.size a + S5000x10.size a := by
  show i ∈ ((View.whole main_v45).slice (win2_2.rect t)).set ↔ _
  rw [View.set_slice_whole, Rect.mem_set_unit]
  exact Iff.rfl

/-- Row `r` lies in the block of point `r / 5000`. -/
theorem cover2 (i : S100000x10.Idx) : ∃ t : Fin cfg2.N, (cfg2.win 2).flush t = true ∧ i ∈ ((cfg2.win 2).blk t).view.set := by
  have hi0 : (i 0).val < 100000 := (i 0).isLt
  have hi1 : (i 1).val < 10 := (i 1).isLt
  refine ⟨⟨(i 0).val / 5000, by show (i 0).val / 5000 < 20; omega⟩, flush2_2 _, ?_⟩
  rw [mem_blk2]
  obtain ⟨e0, e1, e2, e3, e4, e5⟩ := idx_facts2 ⟨(i 0).val / 5000, by show (i 0).val / 5000 < 20; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 10 ≤ (i 1).val ∧ (i 1).val < win2_2.index _ (1 : Fin 2) * 10 + 10; rw [e5]; omega

/-- The array after the launch: the features times the weights. -/
theorem final2 (c : Dev nD) : (dat2 V c).arrAt 2 cfg2.N = times10 (V c main_v44) (V c main_arg4) :=
  (dat2 V c).arrAt_eq_of_cover 2 _ (fun t _ => flushed2 V c t) cover2

end Cert.KernelIdeal.Layer

end
-- ==== Proof.Times8.lean ====
/-
  Launch 4 of the kernel: features times weights, 10 → 8, tiled over the nodes. Grid point t loads rows 5000 t … 5000 t + 4999
  of the feature array and the whole weight matrix, multiplies them into a zero accumulator, and writes the product back as
  the same rows of the output. Entry (p, q) of that block is the sum over k of the feature row 5000 t + p at k times the
  weight at (k, q), which is entry (5000 t + p, q) of the product of the whole arrays; the twenty blocks tile the output, so
  after the launch the output array is that whole product.
-/
import proofs.«178085_j44049184588188_1_alg».proof.Proof.Gen.KernelIdeal.Frame
import proofs.«178085_j44049184588188_1_alg».proof.Proof.RefLayers
import proofs.«178085_j44049184588188_1_alg».proof.Proof.LibDotRows
import Idealize.ShloMosaic.Lib.Pipeline.Value
import Idealize.ShloMosaic.Lib.ValueIdx
import Idealize.ShloMosaic.PureOps.Ideal.Laws

noncomputable section

namespace Cert.KernelIdeal.Layer

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.ReferenceIdeal.Layers (times8)

theorem hz4 : (![0, 0] : Fin 2 → Nat) = fun _ => 0 := funext fun a => by fin_cases a <;> rfl

/-- One block's product at (p, q): the sum over k of the row block at (p, k) times the weights at (k, q). Rounding the
    operands to a narrower format changes nothing at the exact values. -/
theorem pay4_apply (x0 : Vec Ideal S5000x10 .f32) (x1 : Vec Ideal S10x8 .f32) (p : Fin 5000) (q : Fin 8) :
    k4_pay1 x0 x1 (ix2 p q) = ∑ k : Fin 10, x0 (ix2 p k) * x1 (ix2 k q) := by
  unfold k4_pay1
  simp only [shapeCast_self]
  refine (Ideal.matmul_constant_zero_apply dot_S5000x10_S10x8_S5000x8_1_0_0_1_n_n none _ _ (ix2 p q)).trans ?_
  show ∑ c, x0 (dot_S5000x10_S10x8_S5000x8_1_0_0_1_n_n.lhsIdx (ix2 p q) c) * x1 (dot_S5000x10_S10x8_S5000x8_1_0_0_1_n_n.rhsIdx (ix2 p q) c) = _
  dot_rows dot_S5000x10_S10x8_S5000x8_1_0_0_1_n_n S5000x10 S10x8 10

/-- The whole product at (p, q): the same sum over the whole arrays. -/
theorem times8_apply (x : (⟨S100000x10, .f32⟩ : BufTy).Contents (Elt Ideal)) (w : (⟨S10x8, .f32⟩ : BufTy).Contents (Elt Ideal)) (p : Fin 100000) (q : Fin 8) :
    times8 x w (ix2 p q) = ∑ k : Fin 10, x (ix2 p k) * w (ix2 k q) := by
  unfold times8
  simp only [Host.dotGeneral]
  refine (Ideal.dotGeneral_apply Cert.ReferenceIdeal.dot_S100000x10_S10x8_S100000x8_1_0_0_1_n_n none _ x w (ix2 p q)).trans ?_
  dot_rows Cert.ReferenceIdeal.dot_S100000x10_S10x8_S100000x8_1_0_0_1_n_n Cert.ReferenceIdeal.S100000x10 Cert.ReferenceIdeal.S10x8 10

/-- The printed index maps over the grid: the feature and output blocks move with the point along the node axis, the
    weights stay put. -/
theorem idx_facts4 : ∀ t : Fin cfg4.N, win4_0.index t (0 : Fin 2) = t.val
    ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- Entry (p, q) of the block that point `t` computes is entry (5000 t + p, q) of the whole product: both are the sum over
    k of the feature row 5000 t + p at k times the weights at (k, q). -/
theorem block4 (c : Dev nD) (t : Fin cfg4.N) (p : Fin 5000) (q : Fin 8) :
    k4_pay1 (iblk4 V c 0 t) (iblk4 V c 1 t) (ix2 p q)
      = times8 (V c main_v60) (V c main_arg6) (((cfg4.win 2).blk t).view.emb (ix2 p q)) := by
  obtain ⟨e0, e1, e2, e3, e4, e5⟩ := idx_facts4 t
  have ht : t.val < 20 := t.isLt
  have hp : p.val < 5000 := p.isLt
  refine (pay4_apply _ _ p q).trans ?_
  have hP : ((cfg4.win 2).blk t).view.emb (ix2 p q) = ix2 (⟨t.val * 5000 + p.val, by omega⟩ : Fin 100000) q := by
    funext a; apply Fin.ext
    match a with
    | ⟨0, _⟩ => show win4_2.index t (0 : Fin 2) * 5000 + 1 * p.val = t.val * 5000 + p.val; omega
    | ⟨1, _⟩ => show win4_2.index t (1 : Fin 2) * 8 + 1 * q.val = q.val; omega
  rw [hP]
  refine Eq.trans ?_ (times8_apply _ _ _ q).symm
  refine Finset.sum_congr rfl fun k _ => ?_
  have hk0 : ((cfg4.win 0).blk t).view.emb (ix2 p k) = ix2 (⟨t.val * 5000 + p.val, by omega⟩ : Fin 100000) k := by
    funext a; apply Fin.ext
    match a with
    | ⟨0, _⟩ => show win4_0.index t (0 : Fin 2) * 5000 + 1 * p.val = t.val * 5000 + p.val; omega
    | ⟨1, _⟩ => show win4_0.index t (1 : Fin 2) * 10 + 1 * k.val = k.val; omega
  have hk1 : ((cfg4.win 1).blk t).view.emb (ix2 k q) = ix2 k q := by
    funext a; apply Fin.ext
    match a with
    | ⟨0, _⟩ => show win4_1.index t (0 : Fin 2) * 10 + 1 * k.val = k.val; omega
    | ⟨1, _⟩ => show win4_1.index t (1 : Fin 2) * 8 + 1 * q.val = q.val; omega
  have key : ∀ (A : S100000x10.Idx → EReal) (W : S10x8.Idx → EReal),
      A (((cfg4.win 0).blk t).view.emb (ix2 p k)) * W (((cfg4.win 1).blk t).view.emb (ix2 k q))
        = A (ix2 (⟨t.val * 5000 + p.val, by omega⟩ : Fin 100000) k) * W (ix2 k q) :=
    fun A W => congrArg₂ (· * ·) (congrArg A hk0) (congrArg W hk1)
  exact key (V c main_v60) (V c main_arg6)

/-- What point `t` writes back is block `t` of the whole product. -/
theorem flushed4 (c : Dev nD) (t : Fin cfg4.N) :
    (dat4 V c).flushed 2 t = ((cfg4.win 2).blk t).view.read (Elt Ideal) (times8 (V c main_v60) (V c main_arg6)) := by
  show (cfg4.win 2).cut (grid4.coords t) ((dat4 V c).after 2 t) = _
  rw [after4_2]
  unfold out4_2
  rw [View.canon_unit_zero hz4]
  simp only [View.ld_unit_zero (S := S5000x10) hz4, View.ld_unit_zero (S := S10x8) hz4]
  refine funext fun (j : S5000x8.Idx) => ?_
  obtain ⟨p, q, rfl⟩ : ∃ (p : Fin 5000) (q : Fin 8), j = ix2 p q := ⟨j 0, j 1, eq_ix2 j⟩
  exact block4 V c t p q

/-- An index of the array is in point `t`'s block iff each coordinate is in the block's range on its axis. -/
theorem mem_blk4 (t : Fin cfg4.N) (i : S100000x8.Idx) :
    i ∈ ((cfg4.win 2).blk t).view.set ↔ ∀ a : Fin 2, win4_2.index t a * S5000x8.size a ≤ (i a).val ∧ (i a).val < win4_2.index t a * S5000x8.size a + S5000x8.size a := by
  show i ∈ ((View.whole main_v61).slice (win4_2.rect t)).set ↔ _
  rw [View.set_slice_whole, Rect.mem_set_unit]
  exact Iff.rfl

/-- Row `r` lies in the block of point `r / 5000`. -/
theorem cover4 (i : S100000x8.Idx) : ∃ t : Fin cfg4.N, (cfg4.win 2).flush t = true ∧ i ∈ ((cfg4.win 2).blk t).view.set := by
  have hi0 : (i 0).val < 100000 := (i 0).isLt
  have hi1 : (i 1).val < 8 := (i 1).isLt
  refine ⟨⟨(i 0).val / 5000, by show (i 0).val / 5000 < 20; omega⟩, flush4_2 _, ?_⟩
  rw [mem_blk4]
  obtain ⟨e0, e1, e2, e3, e4, e5⟩ := idx_facts4 ⟨(i 0).val / 5000, by show (i 0).val / 5000 < 20; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 8 ≤ (i 1).val ∧ (i 1).val < win4_2.index _ (1 : Fin 2) * 8 + 8; rw [e5]; omega

/-- The array after the launch: the features times the weights. -/
theorem final4 (c : Dev nD) : (dat4 V c).arrAt 2 cfg4.N = times8 (V c main_v60) (V c main_arg6) :=
  (dat4 V c).arrAt_eq_of_cover 2 _ (fun t _ => flushed4 V c t) cover4

end Cert.KernelIdeal.Layer

end
-- ==== Proof.Biased25.lean ====
/-
  Launch 1 of the kernel: a bias row added to every node's row, then the rectifier, width 25, tiled over the nodes. Grid point t
  loads rows 5000 t … 5000 t + 4999 of the summed features and the one bias row, and writes back the larger of zero and their sum
  as the same rows of the output. Entry (p, q) of that block depends on the input at row 5000 t + p, column q, and on the bias
  at column q only, so it is entry (5000 t + p, q) of the same operation on the whole arrays; the twenty blocks tile the
  output, so after the launch the output array is that operation of the whole input and the bias row.
-/
import proofs.«178085_j44049184588188_1_alg».proof.Proof.Gen.KernelIdeal.Frame
import proofs.«178085_j44049184588188_1_alg».proof.Proof.RefLayers
import Idealize.ShloMosaic.Lib.Pipeline.Value
import Idealize.ShloMosaic.Lib.ValueIdx
import Idealize.ShloMosaic.Lib.ValueLayout

noncomputable section

namespace Cert.KernelIdeal.Layer

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.ReferenceIdeal.Layers (rowBiased25)

theorem hz1 : (![0, 0] : Fin 2 → Nat) = fun _ => 0 := funext fun a => by fin_cases a <;> rfl

/-- The block's result at an index: the input there plus the bias row at the same column, or zero if that is larger. -/
theorem pay1_apply (x0 : Vec Ideal S5000x25 .f32) (x1 : Vec Ideal S1x25 .f32) (j : S5000x25.Idx) :
    k1_pay1 x0 x1 j = max (x0 j + x1 (ix2 0 (j 1))) (Ideal.ofBits .f32 0x00000000#32) := by
  unfold k1_pay1
  simp only [shapeCast_self]
  show max (x0 j + broadcastTo S5000x25 x1 broadcasts_S1x25_S5000x25 j) (Ideal.ofBits .f32 0x00000000#32) = _
  rw [broadcastTo_apply x1 _ j (ix2 0 (j 1)) (fun a => by
    match a with
    | ⟨0, _⟩ => rfl
    | ⟨1, _⟩ => rfl)]

/-- The same operation on the whole arrays, read at an index. -/
theorem rowBiased25_apply (a : (⟨S100000x25, .f32⟩ : BufTy).Contents (Elt Ideal)) (row : (⟨S1x25, .f32⟩ : BufTy).Contents (Elt Ideal)) (i : S100000x25.Idx) :
    rowBiased25 a row i = max (a i + row (ix2 0 (i 1))) (Ideal.ofBits .f32 0x00000000#32) := by
  unfold rowBiased25
  show max (a i + broadcastInDim Cert.ReferenceIdeal.S100000x25 ![0, 1] _ row i) (Ideal.ofBits .f32 0x00000000#32) = _
  rw [broadcastInDim_apply ![0, 1] _ row i (ix2 0 (i 1)) (fun a => by
    match a with
    | ⟨0, _⟩ => rfl
    | ⟨1, _⟩ => rfl)]

/-- The printed index maps over the grid: the input and output blocks move with the point along the node axis, the bias
    row stays put. -/
theorem idx_facts1 : ∀ t : Fin cfg1.N, win1_0.index t (0 : Fin 2) = t.val
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the operation on the whole arrays. -/
theorem flushed1 (c : Dev nD) (t : Fin cfg1.N) :
    (dat1 V c).flushed 2 t = ((cfg1.win 2).blk t).view.read (Elt Ideal) (rowBiased25 (V c main_v42) (V c main_v43)) := by
  show (cfg1.win 2).cut (grid1.coords t) ((dat1 V c).after 2 t) = _
  rw [after1_2]
  unfold out1_2
  rw [View.canon_unit_zero hz1]
  simp only [View.ld_unit_zero (S := S5000x25) hz1, View.ld_unit_zero (S := S1x25) hz1]
  obtain ⟨e0, e1, e2, e3, e4, e5⟩ := idx_facts1 t
  funext j
  show k1_pay1 (iblk1 V c 0 t) (iblk1 V c 1 t) j = rowBiased25 (V c main_v42) (V c main_v43) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 25 + 1 * (j 1).val = win1_2.index t (1 : Fin 2) * 25 + 1 * (j 1).val; omega
  have h1 : ((cfg1.win 1).blk t).view.emb (ix2 0 (j 1)) = ix2 0 ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 25 + 1 * (j 1).val = win1_2.index t (1 : Fin 2) * 25 + 1 * (j 1).val; omega
  have key : ∀ (A : S100000x25.Idx → EReal) (R : S1x25.Idx → EReal),
      max (A (((cfg1.win 0).blk t).view.emb j) + R (((cfg1.win 1).blk t).view.emb (ix2 0 (j 1)))) (Ideal.ofBits .f32 0x00000000#32)
        = max (A (((cfg1.win 2).blk t).view.emb j) + R (ix2 0 ((((cfg1.win 2).blk t).view.emb j) 1))) (Ideal.ofBits .f32 0x00000000#32) :=
    fun A R => congrArg (fun s => max s (Ideal.ofBits .f32 0x00000000#32)) (congrArg₂ (· + ·) (congrArg A h0) (congrArg R h1))
  exact (pay1_apply _ _ j).trans ((key (V c main_v42) (V c main_v43)).trans (rowBiased25_apply _ _ _).symm)

/-- An index of the array is in point `t`'s block iff each coordinate is in the block's range on its axis. -/
theorem mem_blk1 (t : Fin cfg1.N) (i : S100000x25.Idx) :
    i ∈ ((cfg1.win 2).blk t).view.set ↔ ∀ a : Fin 2, win1_2.index t a * S5000x25.size a ≤ (i a).val ∧ (i a).val < win1_2.index t a * S5000x25.size a + S5000x25.size a := by
  show i ∈ ((View.whole main_v44).slice (win1_2.rect t)).set ↔ _
  rw [View.set_slice_whole, Rect.mem_set_unit]
  exact Iff.rfl

/-- Row `r` lies in the block of point `r / 5000`. -/
theorem cover1 (i : S100000x25.Idx) : ∃ t : Fin cfg1.N, (cfg1.win 2).flush t = true ∧ i ∈ ((cfg1.win 2).blk t).view.set := by
  have hi0 : (i 0).val < 100000 := (i 0).isLt
  have hi1 : (i 1).val < 25 := (i 1).isLt
  refine ⟨⟨(i 0).val / 5000, by show (i 0).val / 5000 < 20; omega⟩, flush1_2 _, ?_⟩
  rw [mem_blk1]
  obtain ⟨e0, e1, e2, e3, e4, e5⟩ := idx_facts1 ⟨(i 0).val / 5000, by show (i 0).val / 5000 < 20; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 25 ≤ (i 1).val ∧ (i 1).val < win1_2.index _ (1 : Fin 2) * 25 + 25; rw [e5]; omega

/-- The array after the launch: the bias row added to every row of the input, rectified. -/
theorem final1 (c : Dev nD) : (dat1 V c).arrAt 2 cfg1.N = rowBiased25 (V c main_v42) (V c main_v43) :=
  (dat1 V c).arrAt_eq_of_cover 2 _ (fun t _ => flushed1 V c t) cover1

end Cert.KernelIdeal.Layer

end
-- ==== Proof.Biased10.lean ====
/-
  Launch 3 of the kernel: a bias row added to every node's row, then the rectifier, width 10, tiled over the nodes. Grid point t
  loads rows 5000 t … 5000 t + 4999 of the summed features and the one bias row, and writes back the larger of zero and their sum
  as the same rows of the output. Entry (p, q) of that block depends on the input at row 5000 t + p, column q, and on the bias
  at column q only, so it is entry (5000 t + p, q) of the same operation on the whole arrays; the twenty blocks tile the
  output, so after the launch the output array is that operation of the whole input and the bias row.
-/
import proofs.«178085_j44049184588188_1_alg».proof.Proof.Gen.KernelIdeal.Frame
import proofs.«178085_j44049184588188_1_alg».proof.Proof.RefLayers
import Idealize.ShloMosaic.Lib.Pipeline.Value
import Idealize.ShloMosaic.Lib.ValueIdx
import Idealize.ShloMosaic.Lib.ValueLayout

noncomputable section

namespace Cert.KernelIdeal.Layer

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.ReferenceIdeal.Layers (rowBiased10)

theorem hz3 : (![0, 0] : Fin 2 → Nat) = fun _ => 0 := funext fun a => by fin_cases a <;> rfl

/-- The block's result at an index: the input there plus the bias row at the same column, or zero if that is larger. -/
theorem pay3_apply (x0 : Vec Ideal S5000x10 .f32) (x1 : Vec Ideal S1x10 .f32) (j : S5000x10.Idx) :
    k3_pay1 x0 x1 j = max (x0 j + x1 (ix2 0 (j 1))) (Ideal.ofBits .f32 0x00000000#32) := by
  unfold k3_pay1
  simp only [shapeCast_self]
  show max (x0 j + broadcastTo S5000x10 x1 broadcasts_S1x10_S5000x10 j) (Ideal.ofBits .f32 0x00000000#32) = _
  rw [broadcastTo_apply x1 _ j (ix2 0 (j 1)) (fun a => by
    match a with
    | ⟨0, _⟩ => rfl
    | ⟨1, _⟩ => rfl)]

/-- The same operation on the whole arrays, read at an index. -/
theorem rowBiased10_apply (a : (⟨S100000x10, .f32⟩ : BufTy).Contents (Elt Ideal)) (row : (⟨S1x10, .f32⟩ : BufTy).Contents (Elt Ideal)) (i : S100000x10.Idx) :
    rowBiased10 a row i = max (a i + row (ix2 0 (i 1))) (Ideal.ofBits .f32 0x00000000#32) := by
  unfold rowBiased10
  show max (a i + broadcastInDim Cert.ReferenceIdeal.S100000x10 ![0, 1] _ row i) (Ideal.ofBits .f32 0x00000000#32) = _
  rw [broadcastInDim_apply ![0, 1] _ row i (ix2 0 (i 1)) (fun a => by
    match a with
    | ⟨0, _⟩ => rfl
    | ⟨1, _⟩ => rfl)]

/-- The printed index maps over the grid: the input and output blocks move with the point along the node axis, the bias
    row stays put. -/
theorem idx_facts3 : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the operation on the whole arrays. -/
theorem flushed3 (c : Dev nD) (t : Fin cfg3.N) :
    (dat3 V c).flushed 2 t = ((cfg3.win 2).blk t).view.read (Elt Ideal) (rowBiased10 (V c main_v58) (V c main_v59)) := by
  show (cfg3.win 2).cut (grid3.coords t) ((dat3 V c).after 2 t) = _
  rw [after3_2]
  unfold out3_2
  rw [View.canon_unit_zero hz3]
  simp only [View.ld_unit_zero (S := S5000x10) hz3, View.ld_unit_zero (S := S1x10) hz3]
  obtain ⟨e0, e1, e2, e3, e4, e5⟩ := idx_facts3 t
  funext j
  show k3_pay1 (iblk3 V c 0 t) (iblk3 V c 1 t) j = rowBiased10 (V c main_v58) (V c main_v59) (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 10 + 1 * (j 1).val = win3_2.index t (1 : Fin 2) * 10 + 1 * (j 1).val; omega
  have h1 : ((cfg3.win 1).blk t).view.emb (ix2 0 (j 1)) = ix2 0 ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 10 + 1 * (j 1).val = win3_2.index t (1 : Fin 2) * 10 + 1 * (j 1).val; omega
  have key : ∀ (A : S100000x10.Idx → EReal) (R : S1x10.Idx → EReal),
      max (A (((cfg3.win 0).blk t).view.emb j) + R (((cfg3.win 1).blk t).view.emb (ix2 0 (j 1)))) (Ideal.ofBits .f32 0x00000000#32)
        = max (A (((cfg3.win 2).blk t).view.emb j) + R (ix2 0 ((((cfg3.win 2).blk t).view.emb j) 1))) (Ideal.ofBits .f32 0x00000000#32) :=
    fun A R => congrArg (fun s => max s (Ideal.ofBits .f32 0x00000000#32)) (congrArg₂ (· + ·) (congrArg A h0) (congrArg R h1))
  exact (pay3_apply _ _ j).trans ((key (V c main_v58) (V c main_v59)).trans (rowBiased10_apply _ _ _).symm)

/-- An index of the array is in point `t`'s block iff each coordinate is in the block's range on its axis. -/
theorem mem_blk3 (t : Fin cfg3.N) (i : S100000x10.Idx) :
    i ∈ ((cfg3.win 2).blk t).view.set ↔ ∀ a : Fin 2, win3_2.index t a * S5000x10.size a ≤ (i a).val ∧ (i a).val < win3_2.index t a * S5000x10.size a + S5000x10.size a := by
  show i ∈ ((View.whole main_v60).slice (win3_2.rect t)).set ↔ _
  rw [View.set_slice_whole, Rect.mem_set_unit]
  exact Iff.rfl

/-- Row `r` lies in the block of point `r / 5000`. -/
theorem cover3 (i : S100000x10.Idx) : ∃ t : Fin cfg3.N, (cfg3.win 2).flush t = true ∧ i ∈ ((cfg3.win 2).blk t).view.set := by
  have hi0 : (i 0).val < 100000 := (i 0).isLt
  have hi1 : (i 1).val < 10 := (i 1).isLt
  refine ⟨⟨(i 0).val / 5000, by show (i 0).val / 5000 < 20; omega⟩, flush3_2 _, ?_⟩
  rw [mem_blk3]
  obtain ⟨e0, e1, e2, e3, e4, e5⟩ := idx_facts3 ⟨(i 0).val / 5000, by show (i 0).val / 5000 < 20; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 10 ≤ (i 1).val ∧ (i 1).val < win3_2.index _ (1 : Fin 2) * 10 + 10; rw [e5]; omega

/-- The array after the launch: the bias row added to every row of the input, rectified. -/
theorem final3 (c : Dev nD) : (dat3 V c).arrAt 2 cfg3.N = rowBiased10 (V c main_v58) (V c main_v59) :=
  (dat3 V c).arrAt_eq_of_cover 2 _ (fun t _ => flushed3 V c t) cover3

end Cert.KernelIdeal.Layer

end
-- ==== Proof.Biased8.lean ====
/-
  Launch 5 of the kernel: a bias row added to every node's row, width 8, tiled over the nodes. Grid point t
  loads rows 5000 t … 5000 t + 4999 of the summed features and the one bias row, and writes back their sum
  as the same rows of the output. Entry (p, q) of that block depends on the input at row 5000 t + p, column q, and on the bias
  at column q only, so it is entry (5000 t + p, q) of the same operation on the whole arrays; the twenty blocks tile the
  output, so after the launch the output array is that operation of the whole input and the bias row.
-/
import proofs.«178085_j44049184588188_1_alg».proof.Proof.Gen.KernelIdeal.Frame
import proofs.«178085_j44049184588188_1_alg».proof.Proof.RefLayers
import Idealize.ShloMosaic.Lib.Pipeline.Value
import Idealize.ShloMosaic.Lib.ValueIdx
import Idealize.ShloMosaic.Lib.ValueLayout

noncomputable section

namespace Cert.KernelIdeal.Layer

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.ReferenceIdeal.Layers (rowBiased8)

theorem hz5 : (![0, 0] : Fin 2 → Nat) = fun _ => 0 := funext fun a => by fin_cases a <;> rfl

/-- The block's result at an index: the input there plus the bias row at the same column. -/
theorem pay5_apply (x0 : Vec Ideal S5000x8 .f32) (x1 : Vec Ideal S1x8 .f32) (j : S5000x8.Idx) :
    k5_pay1 x0 x1 j = x0 j + x1 (ix2 0 (j 1)) := by
  unfold k5_pay1
  simp only [shapeCast_self]
  show x0 j + broadcastTo S5000x8 x1 broadcasts_S1x8_S5000x8 j = _
  rw [broadcastTo_apply x1 _ j (ix2 0 (j 1)) (fun a => by
    match a with
    | ⟨0, _⟩ => rfl
    | ⟨1, _⟩ => rfl)]

/-- The same operation on the whole arrays, read at an index. -/
theorem rowBiased8_apply (a : (⟨S100000x8, .f32⟩ : BufTy).Contents (Elt Ideal)) (row : (⟨S1x8, .f32⟩ : BufTy).Contents (Elt Ideal)) (i : S100000x8.Idx) :
    rowBiased8 a row i = a i + row (ix2 0 (i 1)) := by
  unfold rowBiased8
  show a i + broadcastInDim Cert.ReferenceIdeal.S100000x8 ![0, 1] _ row i = _
  rw [broadcastInDim_apply ![0, 1] _ row i (ix2 0 (i 1)) (fun a => by
    match a with
    | ⟨0, _⟩ => rfl
    | ⟨1, _⟩ => rfl)]

/-- The printed index maps over the grid: the input and output blocks move with the point along the node axis, the bias
    row stays put. -/
theorem idx_facts5 : ∀ t : Fin cfg5.N, win5_0.index t (0 : Fin 2) = t.val
    ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point `t` writes back is block `t` of the operation on the whole arrays. -/
theorem flushed5 (c : Dev nD) (t : Fin cfg5.N) :
    (dat5 V c).flushed 2 t = ((cfg5.win 2).blk t).view.read (Elt Ideal) (rowBiased8 (V c main_v74) (V c main_v75)) := by
  show (cfg5.win 2).cut (grid5.coords t) ((dat5 V c).after 2 t) = _
  rw [after5_2]
  unfold out5_2
  rw [View.canon_unit_zero hz5]
  simp only [View.ld_unit_zero (S := S5000x8) hz5, View.ld_unit_zero (S := S1x8) hz5]
  obtain ⟨e0, e1, e2, e3, e4, e5⟩ := idx_facts5 t
  funext j
  show k5_pay1 (iblk5 V c 0 t) (iblk5 V c 1 t) j = rowBiased8 (V c main_v74) (V c main_v75) (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 8 + 1 * (j 1).val = win5_2.index t (1 : Fin 2) * 8 + 1 * (j 1).val; omega
  have h1 : ((cfg5.win 1).blk t).view.emb (ix2 0 (j 1)) = ix2 0 ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 8 + 1 * (j 1).val = win5_2.index t (1 : Fin 2) * 8 + 1 * (j 1).val; omega
  have key : ∀ (A : S100000x8.Idx → EReal) (R : S1x8.Idx → EReal),
      A (((cfg5.win 0).blk t).view.emb j) + R (((cfg5.win 1).blk t).view.emb (ix2 0 (j 1)))
        = A (((cfg5.win 2).blk t).view.emb j) + R (ix2 0 ((((cfg5.win 2).blk t).view.emb j) 1)) :=
    fun A R => congrArg₂ (· + ·) (congrArg A h0) (congrArg R h1)
  exact (pay5_apply _ _ j).trans ((key (V c main_v74) (V c main_v75)).trans (rowBiased8_apply _ _ _).symm)

/-- An index of the array is in point `t`'s block iff each coordinate is in the block's range on its axis. -/
theorem mem_blk5 (t : Fin cfg5.N) (i : S100000x8.Idx) :
    i ∈ ((cfg5.win 2).blk t).view.set ↔ ∀ a : Fin 2, win5_2.index t a * S5000x8.size a ≤ (i a).val ∧ (i a).val < win5_2.index t a * S5000x8.size a + S5000x8.size a := by
  show i ∈ ((View.whole main_v76).slice (win5_2.rect t)).set ↔ _
  rw [View.set_slice_whole, Rect.mem_set_unit]
  exact Iff.rfl

/-- Row `r` lies in the block of point `r / 5000`. -/
theorem cover5 (i : S100000x8.Idx) : ∃ t : Fin cfg5.N, (cfg5.win 2).flush t = true ∧ i ∈ ((cfg5.win 2).blk t).view.set := by
  have hi0 : (i 0).val < 100000 := (i 0).isLt
  have hi1 : (i 1).val < 8 := (i 1).isLt
  refine ⟨⟨(i 0).val / 5000, by show (i 0).val / 5000 < 20; omega⟩, flush5_2 _, ?_⟩
  rw [mem_blk5]
  obtain ⟨e0, e1, e2, e3, e4, e5⟩ := idx_facts5 ⟨(i 0).val / 5000, by show (i 0).val / 5000 < 20; omega⟩
  intro a
  match a with
  | ⟨0, _⟩ => show win5_2.index _ (0 : Fin 2) * 5000 ≤ (i 0).val ∧ (i 0).val < win5_2.index _ (0 : Fin 2) * 5000 + 5000; rw [e4]; show (i 0).val / 5000 * 5000 ≤ (i 0).val ∧ (i 0).val < (i 0).val / 5000 * 5000 + 5000; omega
  | ⟨1, _⟩ => show win5_2.index _ (1 : Fin 2) * 8 ≤ (i 1).val ∧ (i 1).val < win5_2.index _ (1 : Fin 2) * 8 + 8; rw [e5]; omega

/-- The array after the launch: the bias row added to every row of the input. -/
theorem final5 (c : Dev nD) : (dat5 V c).arrAt 2 cfg5.N = rowBiased8 (V c main_v74) (V c main_v75) :=
  (dat5 V c).arrAt_eq_of_cover 2 _ (fun t _ => flushed5 V c t) cover5

end Cert.KernelIdeal.Layer

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibRowAsBroadcast.lean ====
/-
  A vector read as a row, two ways.

  A vector of b entries becomes a row [1, b] either by a reshape or by a broadcast that places the vector's axis
  second and adds a leading axis of extent one. Both rows read entry j of the vector at (u, j), so they are the same
  array. (A bias vector handed to a kernel as a reshaped row against a reference that broadcasts it.)
-/
import proofs.«178085_j44049184588188_1_alg».proof.Proof.LibRowCast
import Idealize.ShloMosaic.Lib.Pipeline.Value
import Idealize.ShloMosaic.Lib.ValueIdx

noncomputable section

namespace Cert.RowCast

open Idealize.ShloMosaic Idealize.ShloMosaic.ValueIdx

/-- A vector of b entries reshaped to the row [1, b] is the vector broadcast to [1, b] along a new leading axis. -/
theorem shapeCast_row_eq_broadcastInDim {α : Type} {b : ℕ} (x : (⟨1, ![b]⟩ : Shape).Idx → α)
    (h : (⟨1, ![b]⟩ : Shape).ShapeCasts ⟨2, ![1, b]⟩)
    (h' : (⟨1, ![b]⟩ : Shape).BroadcastsInDim ⟨2, ![1, b]⟩ ![1]) :
    shapeCast ⟨2, ![1, b]⟩ x h = broadcastInDim ⟨2, ![1, b]⟩ ![1] h' x := by
  funext i
  obtain ⟨u, j, rfl⟩ : ∃ (u : Fin 1) (j : Fin b), i = ix2 u j := ⟨i 0, i 1, eq_ix2 i⟩
  rw [shapeCast_row_apply]
  refine (broadcastInDim_apply ![1] h' x (ix2 u j) (ix1 j) fun a => ?_).symm
  match a with
  | ⟨0, _⟩ =>
    show j.val = if b = 1 then 0 else j.val
    split
    · have := j.isLt; omega
    · rfl

end Cert.RowCast

end
-- ==== Proof.Chain.lean ====
/-
  The kernel's result, boundary by boundary. Between the launch and the return the program crosses ten boundaries: a host
  stretch computes new buffers from old ones and leaves the rest alone, and a launch replaces its output array by what its
  twenty blocks write and leaves every other buffer alone. At each boundary this file records the buffers still to be read:
  the edges' sources and targets with their self-loops and the edge weights (computed once, before the first launch, and
  carried unchanged to the three places that read them), the arguments not yet consumed, and the running value of the
  network. The last boundary's result array is the network of the arguments: the reference's three convolutions.
-/
import proofs.«178085_j44049184588188_1_alg».proof.Proof.Gen.KernelIdeal.Frame
import proofs.«178085_j44049184588188_1_alg».proof.Proof.RefLayers
import proofs.«178085_j44049184588188_1_alg».proof.Proof.Times25
import proofs.«178085_j44049184588188_1_alg».proof.Proof.Times10
import proofs.«178085_j44049184588188_1_alg».proof.Proof.Times8
import proofs.«178085_j44049184588188_1_alg».proof.Proof.Biased25
import proofs.«178085_j44049184588188_1_alg».proof.Proof.Biased10
import proofs.«178085_j44049184588188_1_alg».proof.Proof.Biased8
import proofs.«178085_j44049184588188_1_alg».proof.Proof.LibRowAsBroadcast
import Idealize.ShloMosaic.Lib.StableHlo.Run

noncomputable section

namespace Cert.KernelIdeal.Layer

open Idealize.ShloMosaic Idealize.ShloMosaic.TcCoe Idealize.SL.Sem
open Cert.KernelIdeal Cert.KernelIdeal.Gen
open Cert.ReferenceIdeal.Layers (sources targets edgeWeight spread25 spread10 spread8 times25 times10 times8 rowBiased25 rowBiased10 rowBiased8 network)

variable (m : (ℓ : Loc nD τ sig) → Buf (Elt Ideal) ℓ) (ρ : Dev nD → PrngReg) (c : Dev nD)

/-! ## After the first host stretch: the edge ends with their self-loops, the edge weights; the arguments untouched -/

theorem W1_v5 : W1 m ρ c (Proc.devRef .tc main_v5) = sources (m ((c.tc : Thread nD τ).loc main_arg1)) := by
  show StableHlo.after hostOps0 (W0 m ρ c) (Proc.devRef .tc main_v5) = _
  after_results_simp
  rfl
theorem W1_v6 : W1 m ρ c (Proc.devRef .tc main_v6) = targets (m ((c.tc : Thread nD τ).loc main_arg1)) := by
  show StableHlo.after hostOps0 (W0 m ρ c) (Proc.devRef .tc main_v6) = _
  after_results_simp
  rfl
theorem W1_v28 : W1 m ρ c (Proc.devRef .tc main_v28) = edgeWeight (sources (m ((c.tc : Thread nD τ).loc main_arg1))) (targets (m ((c.tc : Thread nD τ).loc main_arg1))) := by
  show StableHlo.after hostOps0 (W0 m ρ c) (Proc.devRef .tc main_v28) = _
  after_results_simp
  rfl
theorem W1_arg0 : W1 m ρ c (Proc.devRef .tc main_arg0) = (m ((c.tc : Thread nD τ).loc main_arg0)) := by
  show StableHlo.after hostOps0 (W0 m ρ c) (Proc.devRef .tc main_arg0) = _
  after_results_simp
theorem W1_arg2 : W1 m ρ c (Proc.devRef .tc main_arg2) = (m ((c.tc : Thread nD τ).loc main_arg2)) := by
  show StableHlo.after hostOps0 (W0 m ρ c) (Proc.devRef .tc main_arg2) = _
  after_results_simp
theorem W1_arg3 : W1 m ρ c (Proc.devRef .tc main_arg3) = (m ((c.tc : Thread nD τ).loc main_arg3)) := by
  show StableHlo.after hostOps0 (W0 m ρ c) (Proc.devRef .tc main_arg3) = _
  after_results_simp
theorem W1_arg4 : W1 m ρ c (Proc.devRef .tc main_arg4) = (m ((c.tc : Thread nD τ).loc main_arg4)) := by
  show StableHlo.after hostOps0 (W0 m ρ c) (Proc.devRef .tc main_arg4) = _
  after_results_simp
theorem W1_arg5 : W1 m ρ c (Proc.devRef .tc main_arg5) = (m ((c.tc : Thread nD τ).loc main_arg5)) := by
  show StableHlo.after hostOps0 (W0 m ρ c) (Proc.devRef .tc main_arg5) = _
  after_results_simp
theorem W1_arg6 : W1 m ρ c (Proc.devRef .tc main_arg6) = (m ((c.tc : Thread nD τ).loc main_arg6)) := by
  show StableHlo.after hostOps0 (W0 m ρ c) (Proc.devRef .tc main_arg6) = _
  after_results_simp
theorem W1_arg7 : W1 m ρ c (Proc.devRef .tc main_arg7) = (m ((c.tc : Thread nD τ).loc main_arg7)) := by
  show StableHlo.after hostOps0 (W0 m ρ c) (Proc.devRef .tc main_arg7) = _
  after_results_simp

/-! ## After launch 0: the features times the first weights -/

theorem W2_v29 : W2 m ρ c (Proc.devRef .tc main_v29) = times25 (m ((c.tc : Thread nD τ).loc main_arg0)) (m ((c.tc : Thread nD τ).loc main_arg2)) :=
  (W2_arr m ρ c 2).trans ((final0 (V1 m ρ) c).trans (congrArg₂ times25 (W1_arg0 m ρ c) (W1_arg2 m ρ c)))
theorem W2_v5 : W2 m ρ c (Proc.devRef .tc main_v5) = sources (m ((c.tc : Thread nD τ).loc main_arg1)) :=
  (W2_of_ne m ρ c main_v5 (by decide)).trans (W1_v5 m ρ c)
theorem W2_v6 : W2 m ρ c (Proc.devRef .tc main_v6) = targets (m ((c.tc : Thread nD τ).loc main_arg1)) :=
  (W2_of_ne m ρ c main_v6 (by decide)).trans (W1_v6 m ρ c)
theorem W2_v28 : W2 m ρ c (Proc.devRef .tc main_v28) = edgeWeight (sources (m ((c.tc : Thread nD τ).loc main_arg1))) (targets (m ((c.tc : Thread nD τ).loc main_arg1))) :=
  (W2_of_ne m ρ c main_v28 (by decide)).trans (W1_v28 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)
theorem W2_arg7 : W2 m ρ c (Proc.devRef .tc main_arg7) = (m ((c.tc : Thread nD τ).loc main_arg7)) :=
  (W2_of_ne m ρ c main_arg7 (by decide)).trans (W1_arg7 m ρ c)

/-! ## After the second host stretch: the rows sent along the edges and summed; the first bias as a row -/

theorem W3_v42 : W3 m ρ c (Proc.devRef .tc main_v42) = spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1)))) := by
  show StableHlo.after hostOps1 (W2 m ρ c) (Proc.devRef .tc main_v42) = _
  after_results_simp
  rw [W2_v29, W2_v5, W2_v6, W2_v28]
  rfl
theorem W3_v43 : W3 m ρ c (Proc.devRef .tc main_v43) = broadcastInDim Cert.ReferenceIdeal.S1x25 ![1] Cert.ReferenceIdeal.Facts₀.bcast_S25_S1x25_1 (m ((c.tc : Thread nD τ).loc main_arg3)) := by
  show StableHlo.after hostOps1 (W2 m ρ c) (Proc.devRef .tc main_v43) = _
  after_results_simp
  rw [W2_arg3]
  exact Cert.RowCast.shapeCast_row_eq_broadcastInDim _ _ _
theorem W3_v5 : W3 m ρ c (Proc.devRef .tc main_v5) = sources (m ((c.tc : Thread nD τ).loc main_arg1)) := by
  show StableHlo.after hostOps1 (W2 m ρ c) (Proc.devRef .tc main_v5) = _
  after_results_simp
  exact W2_v5 m ρ c
theorem W3_v6 : W3 m ρ c (Proc.devRef .tc main_v6) = targets (m ((c.tc : Thread nD τ).loc main_arg1)) := by
  show StableHlo.after hostOps1 (W2 m ρ c) (Proc.devRef .tc main_v6) = _
  after_results_simp
  exact W2_v6 m ρ c
theorem W3_v28 : W3 m ρ c (Proc.devRef .tc main_v28) = edgeWeight (sources (m ((c.tc : Thread nD τ).loc main_arg1))) (targets (m ((c.tc : Thread nD τ).loc main_arg1))) := by
  show StableHlo.after hostOps1 (W2 m ρ c) (Proc.devRef .tc main_v28) = _
  after_results_simp
  exact W2_v28 m ρ c
theorem W3_arg4 : W3 m ρ c (Proc.devRef .tc main_arg4) = (m ((c.tc : Thread nD τ).loc main_arg4)) := by
  show StableHlo.after hostOps1 (W2 m ρ c) (Proc.devRef .tc main_arg4) = _
  after_results_simp
  exact W2_arg4 m ρ c
theorem W3_arg5 : W3 m ρ c (Proc.devRef .tc main_arg5) = (m ((c.tc : Thread nD τ).loc main_arg5)) := by
  show StableHlo.after hostOps1 (W2 m ρ c) (Proc.devRef .tc main_arg5) = _
  after_results_simp
  exact W2_arg5 m ρ c
theorem W3_arg6 : W3 m ρ c (Proc.devRef .tc main_arg6) = (m ((c.tc : Thread nD τ).loc main_arg6)) := by
  show StableHlo.after hostOps1 (W2 m ρ c) (Proc.devRef .tc main_arg6) = _
  after_results_simp
  exact W2_arg6 m ρ c
theorem W3_arg7 : W3 m ρ c (Proc.devRef .tc main_arg7) = (m ((c.tc : Thread nD τ).loc main_arg7)) := by
  show StableHlo.after hostOps1 (W2 m ρ c) (Proc.devRef .tc main_arg7) = _
  after_results_simp
  exact W2_arg7 m ρ c

/-! ## After launch 1: the first layer's output -/

theorem W4_v44 : W4 m ρ c (Proc.devRef .tc main_v44) = rowBiased25 (spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x25 ![1] Cert.ReferenceIdeal.Facts₀.bcast_S25_S1x25_1 (m ((c.tc : Thread nD τ).loc main_arg3))) :=
  (W4_arr m ρ c 2).trans ((final1 (V3 m ρ) c).trans (congrArg₂ rowBiased25 (W3_v42 m ρ c) (W3_v43 m ρ c)))
theorem W4_v5 : W4 m ρ c (Proc.devRef .tc main_v5) = sources (m ((c.tc : Thread nD τ).loc main_arg1)) :=
  (W4_of_ne m ρ c main_v5 (by decide)).trans (W3_v5 m ρ c)
theorem W4_v6 : W4 m ρ c (Proc.devRef .tc main_v6) = targets (m ((c.tc : Thread nD τ).loc main_arg1)) :=
  (W4_of_ne m ρ c main_v6 (by decide)).trans (W3_v6 m ρ c)
theorem W4_v28 : W4 m ρ c (Proc.devRef .tc main_v28) = edgeWeight (sources (m ((c.tc : Thread nD τ).loc main_arg1))) (targets (m ((c.tc : Thread nD τ).loc main_arg1))) :=
  (W4_of_ne m ρ c main_v28 (by decide)).trans (W3_v28 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)
theorem W4_arg6 : W4 m ρ c (Proc.devRef .tc main_arg6) = (m ((c.tc : Thread nD τ).loc main_arg6)) :=
  (W4_of_ne m ρ c main_arg6 (by decide)).trans (W3_arg6 m ρ c)
theorem W4_arg7 : W4 m ρ c (Proc.devRef .tc main_arg7) = (m ((c.tc : Thread nD τ).loc main_arg7)) :=
  (W4_of_ne m ρ c main_arg7 (by decide)).trans (W3_arg7 m ρ c)

/-! ## After launch 2: times the second weights -/

theorem W5_v45 : W5 m ρ c (Proc.devRef .tc main_v45) = times10 (rowBiased25 (spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x25 ![1] Cert.ReferenceIdeal.Facts₀.bcast_S25_S1x25_1 (m ((c.tc : Thread nD τ).loc main_arg3)))) (m ((c.tc : Thread nD τ).loc main_arg4)) :=
  (W5_arr m ρ c 2).trans ((final2 (V4 m ρ) c).trans (congrArg₂ times10 (W4_v44 m ρ c) (W4_arg4 m ρ c)))
theorem W5_v5 : W5 m ρ c (Proc.devRef .tc main_v5) = sources (m ((c.tc : Thread nD τ).loc main_arg1)) :=
  (W5_of_ne m ρ c main_v5 (by decide)).trans (W4_v5 m ρ c)
theorem W5_v6 : W5 m ρ c (Proc.devRef .tc main_v6) = targets (m ((c.tc : Thread nD τ).loc main_arg1)) :=
  (W5_of_ne m ρ c main_v6 (by decide)).trans (W4_v6 m ρ c)
theorem W5_v28 : W5 m ρ c (Proc.devRef .tc main_v28) = edgeWeight (sources (m ((c.tc : Thread nD τ).loc main_arg1))) (targets (m ((c.tc : Thread nD τ).loc main_arg1))) :=
  (W5_of_ne m ρ c main_v28 (by decide)).trans (W4_v28 m ρ c)
theorem W5_arg5 : W5 m ρ c (Proc.devRef .tc main_arg5) = (m ((c.tc : Thread nD τ).loc main_arg5)) :=
  (W5_of_ne m ρ c main_arg5 (by decide)).trans (W4_arg5 m ρ c)
theorem W5_arg6 : W5 m ρ c (Proc.devRef .tc main_arg6) = (m ((c.tc : Thread nD τ).loc main_arg6)) :=
  (W5_of_ne m ρ c main_arg6 (by decide)).trans (W4_arg6 m ρ c)
theorem W5_arg7 : W5 m ρ c (Proc.devRef .tc main_arg7) = (m ((c.tc : Thread nD τ).loc main_arg7)) :=
  (W5_of_ne m ρ c main_arg7 (by decide)).trans (W4_arg7 m ρ c)

/-! ## After the third host stretch -/

theorem W6_v58 : W6 m ρ c (Proc.devRef .tc main_v58) = spread10 (times10 (rowBiased25 (spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x25 ![1] Cert.ReferenceIdeal.Facts₀.bcast_S25_S1x25_1 (m ((c.tc : Thread nD τ).loc main_arg3)))) (m ((c.tc : Thread nD τ).loc main_arg4))) (sources (m ((c.tc : Thread nD τ).loc main_arg1))) (targets (m ((c.tc : Thread nD τ).loc main_arg1))) (edgeWeight (sources (m ((c.tc : Thread nD τ).loc main_arg1))) (targets (m ((c.tc : Thread nD τ).loc main_arg1)))) := by
  show StableHlo.after hostOps3 (W5 m ρ c) (Proc.devRef .tc main_v58) = _
  after_results_simp
  rw [W5_v45, W5_v5, W5_v6, W5_v28]
  rfl
theorem W6_v59 : W6 m ρ c (Proc.devRef .tc main_v59) = broadcastInDim Cert.ReferenceIdeal.S1x10 ![1] Cert.ReferenceIdeal.Facts₀.bcast_S10_S1x10_1 (m ((c.tc : Thread nD τ).loc main_arg5)) := by
  show StableHlo.after hostOps3 (W5 m ρ c) (Proc.devRef .tc main_v59) = _
  after_results_simp
  rw [W5_arg5]
  exact Cert.RowCast.shapeCast_row_eq_broadcastInDim _ _ _
theorem W6_v5 : W6 m ρ c (Proc.devRef .tc main_v5) = sources (m ((c.tc : Thread nD τ).loc main_arg1)) := by
  show StableHlo.after hostOps3 (W5 m ρ c) (Proc.devRef .tc main_v5) = _
  after_results_simp
  exact W5_v5 m ρ c
theorem W6_v6 : W6 m ρ c (Proc.devRef .tc main_v6) = targets (m ((c.tc : Thread nD τ).loc main_arg1)) := by
  show StableHlo.after hostOps3 (W5 m ρ c) (Proc.devRef .tc main_v6) = _
  after_results_simp
  exact W5_v6 m ρ c
theorem W6_v28 : W6 m ρ c (Proc.devRef .tc main_v28) = edgeWeight (sources (m ((c.tc : Thread nD τ).loc main_arg1))) (targets (m ((c.tc : Thread nD τ).loc main_arg1))) := by
  show StableHlo.after hostOps3 (W5 m ρ c) (Proc.devRef .tc main_v28) = _
  after_results_simp
  exact W5_v28 m ρ c
theorem W6_arg6 : W6 m ρ c (Proc.devRef .tc main_arg6) = (m ((c.tc : Thread nD τ).loc main_arg6)) := by
  show StableHlo.after hostOps3 (W5 m ρ c) (Proc.devRef .tc main_arg6) = _
  after_results_simp
  exact W5_arg6 m ρ c
theorem W6_arg7 : W6 m ρ c (Proc.devRef .tc main_arg7) = (m ((c.tc : Thread nD τ).loc main_arg7)) := by
  show StableHlo.after hostOps3 (W5 m ρ c) (Proc.devRef .tc main_arg7) = _
  after_results_simp
  exact W5_arg7 m ρ c

/-! ## After launch 3: the second layer's output -/

theorem W7_v60 : W7 m ρ c (Proc.devRef .tc main_v60) = rowBiased10 (spread10 (times10 (rowBiased25 (spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x25 ![1] Cert.ReferenceIdeal.Facts₀.bcast_S25_S1x25_1 (m ((c.tc : Thread nD τ).loc main_arg3)))) (m ((c.tc : Thread nD τ).loc main_arg4))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x10 ![1] Cert.ReferenceIdeal.Facts₀.bcast_S10_S1x10_1 (m ((c.tc : Thread nD τ).loc main_arg5))) :=
  (W7_arr m ρ c 2).trans ((final3 (V6 m ρ) c).trans (congrArg₂ rowBiased10 (W6_v58 m ρ c) (W6_v59 m ρ c)))
theorem W7_v5 : W7 m ρ c (Proc.devRef .tc main_v5) = sources (m ((c.tc : Thread nD τ).loc main_arg1)) :=
  (W7_of_ne m ρ c main_v5 (by decide)).trans (W6_v5 m ρ c)
theorem W7_v6 : W7 m ρ c (Proc.devRef .tc main_v6) = targets (m ((c.tc : Thread nD τ).loc main_arg1)) :=
  (W7_of_ne m ρ c main_v6 (by decide)).trans (W6_v6 m ρ c)
theorem W7_v28 : W7 m ρ c (Proc.devRef .tc main_v28) = edgeWeight (sources (m ((c.tc : Thread nD τ).loc main_arg1))) (targets (m ((c.tc : Thread nD τ).loc main_arg1))) :=
  (W7_of_ne m ρ c main_v28 (by decide)).trans (W6_v28 m ρ c)
theorem W7_arg6 : W7 m ρ c (Proc.devRef .tc main_arg6) = (m ((c.tc : Thread nD τ).loc main_arg6)) :=
  (W7_of_ne m ρ c main_arg6 (by decide)).trans (W6_arg6 m ρ c)
theorem W7_arg7 : W7 m ρ c (Proc.devRef .tc main_arg7) = (m ((c.tc : Thread nD τ).loc main_arg7)) :=
  (W7_of_ne m ρ c main_arg7 (by decide)).trans (W6_arg7 m ρ c)

/-! ## After launch 4: times the third weights -/

theorem W8_v61 : W8 m ρ c (Proc.devRef .tc main_v61) = times8 (rowBiased10 (spread10 (times10 (rowBiased25 (spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x25 ![1] Cert.ReferenceIdeal.Facts₀.bcast_S25_S1x25_1 (m ((c.tc : Thread nD τ).loc main_arg3)))) (m ((c.tc : Thread nD τ).loc main_arg4))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x10 ![1] Cert.ReferenceIdeal.Facts₀.bcast_S10_S1x10_1 (m ((c.tc : Thread nD τ).loc main_arg5)))) (m ((c.tc : Thread nD τ).loc main_arg6)) :=
  (W8_arr m ρ c 2).trans ((final4 (V7 m ρ) c).trans (congrArg₂ times8 (W7_v60 m ρ c) (W7_arg6 m ρ c)))
theorem W8_v5 : W8 m ρ c (Proc.devRef .tc main_v5) = sources (m ((c.tc : Thread nD τ).loc main_arg1)) :=
  (W8_of_ne m ρ c main_v5 (by decide)).trans (W7_v5 m ρ c)
theorem W8_v6 : W8 m ρ c (Proc.devRef .tc main_v6) = targets (m ((c.tc : Thread nD τ).loc main_arg1)) :=
  (W8_of_ne m ρ c main_v6 (by decide)).trans (W7_v6 m ρ c)
theorem W8_v28 : W8 m ρ c (Proc.devRef .tc main_v28) = edgeWeight (sources (m ((c.tc : Thread nD τ).loc main_arg1))) (targets (m ((c.tc : Thread nD τ).loc main_arg1))) :=
  (W8_of_ne m ρ c main_v28 (by decide)).trans (W7_v28 m ρ c)
theorem W8_arg7 : W8 m ρ c (Proc.devRef .tc main_arg7) = (m ((c.tc : Thread nD τ).loc main_arg7)) :=
  (W8_of_ne m ρ c main_arg7 (by decide)).trans (W7_arg7 m ρ c)

/-! ## After the last host stretch -/

theorem W9_v74 : W9 m ρ c (Proc.devRef .tc main_v74) = spread8 (times8 (rowBiased10 (spread10 (times10 (rowBiased25 (spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x25 ![1] Cert.ReferenceIdeal.Facts₀.bcast_S25_S1x25_1 (m ((c.tc : Thread nD τ).loc main_arg3)))) (m ((c.tc : Thread nD τ).loc main_arg4))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x10 ![1] Cert.ReferenceIdeal.Facts₀.bcast_S10_S1x10_1 (m ((c.tc : Thread nD τ).loc main_arg5)))) (m ((c.tc : Thread nD τ).loc main_arg6))) (sources (m ((c.tc : Thread nD τ).loc main_arg1))) (targets (m ((c.tc : Thread nD τ).loc main_arg1))) (edgeWeight (sources (m ((c.tc : Thread nD τ).loc main_arg1))) (targets (m ((c.tc : Thread nD τ).loc main_arg1)))) := by
  show StableHlo.after hostOps5 (W8 m ρ c) (Proc.devRef .tc main_v74) = _
  after_results_simp
  rw [W8_v61, W8_v5, W8_v6, W8_v28]
  rfl
theorem W9_v75 : W9 m ρ c (Proc.devRef .tc main_v75) = broadcastInDim Cert.ReferenceIdeal.S1x8 ![1] Cert.ReferenceIdeal.Facts₀.bcast_S8_S1x8_1 (m ((c.tc : Thread nD τ).loc main_arg7)) := by
  show StableHlo.after hostOps5 (W8 m ρ c) (Proc.devRef .tc main_v75) = _
  after_results_simp
  rw [W8_arg7]
  exact Cert.RowCast.shapeCast_row_eq_broadcastInDim _ _ _

/-! ## After the last launch: the network's output -/

theorem W10_v76 : W10 m ρ c (Proc.devRef .tc main_v76) = rowBiased8 (spread8 (times8 (rowBiased10 (spread10 (times10 (rowBiased25 (spread25 (times25 (m ((c.tc : Thread nD τ).loc main_arg0)) (m ((c.tc : Thread nD τ).loc main_arg2))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x25 ![1] Cert.ReferenceIdeal.Facts₀.bcast_S25_S1x25_1 (m ((c.tc : Thread nD τ).loc main_arg3)))) (m ((c.tc : Thread nD τ).loc main_arg4))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x10 ![1] Cert.ReferenceIdeal.Facts₀.bcast_S10_S1x10_1 (m ((c.tc : Thread nD τ).loc main_arg5)))) (m ((c.tc : Thread nD τ).loc main_arg6))) (sources (m ((c.tc : Thread nD τ).loc main_arg1))) (targets (m ((c.tc : Thread nD τ).loc main_arg1))) (edgeWeight (sources (m ((c.tc : Thread nD τ).loc main_arg1))) (targets (m ((c.tc : Thread nD τ).loc main_arg1))))) (broadcastInDim Cert.ReferenceIdeal.S1x8 ![1] Cert.ReferenceIdeal.Facts₀.bcast_S8_S1x8_1 (m ((c.tc : Thread nD τ).loc main_arg7))) :=
  (W10_arr m ρ c 2).trans ((final5 (V9 m ρ) c).trans (congrArg₂ rowBiased8 (W9_v74 m ρ c) (W9_v75 m ρ c)))

/-- The result array after the run is the network of the argument arrays: the same three convolutions as the reference's,
    on the same edge ends and edge weights (computed once here, and equal to the reference's at each of its uses). -/
theorem result_eq : W10 m ρ c (Proc.devRef .tc main_v76)
    = network (m ((c.tc : Thread nD τ).loc main_arg0)) (sources (m ((c.tc : Thread nD τ).loc main_arg1))) (targets (m ((c.tc : Thread nD τ).loc main_arg1))) (edgeWeight (sources (m ((c.tc : Thread nD τ).loc main_arg1))) (targets (m ((c.tc : Thread nD τ).loc main_arg1)))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  W10_v76 m ρ c

end Cert.KernelIdeal.Layer

end
-- ==== Proof.lean ====
/-
  Three graph convolutions on 100000 nodes and 3.3 million edges (self-loops included), the first two followed by a
  rectifier. A convolution multiplies the node features by a weight matrix, sends each node's row along every edge scaled
  by the edge's weight, sums the rows arriving at each node and adds a bias row; an edge's weight is the product of the
  inverse square roots of its ends' in-degrees.

  The kernel computes the edge list and the edge weights once and runs, per convolution, a tiled matrix product (twenty
  blocks of 5000 nodes, the operands rounded to a narrower format on the way in), the gather / scale / scatter-add on the
  host, and a tiled bias-and-rectifier pass. The reference recomputes the edge list and the weights in each convolution and
  does everything on the host.

  At the exact values a change of float format is the identity, and a product into a zero accumulator and a host product are
  both the sum over the contraction index of the operands' products. So each tiled product is the product of the whole
  arrays (block t of it is rows 5000 t … 5000 t + 4999), each tiled bias pass is the bias row added to every row (and the
  larger of that and zero), and the host operations between them are the reference's own, applied to equal operands. Both
  programs therefore end with the same function of the eight arguments, `network`. No arithmetic law beyond re-indexing a
  finite sum is used, so the proof never opens the precondition.

  Nothing was rewritten when the kernel was idealized, so the word-level kernel's relation to its idealization is the
  trivial statement.
-/
import proofs.«178085_j44049184588188_1_alg».proof.Defs
import proofs.«178085_j44049184588188_1_alg».proof.Proof.Gen.Kernel
import proofs.«178085_j44049184588188_1_alg».proof.Proof.Gen.Kernel.Frame
import proofs.«178085_j44049184588188_1_alg».proof.Proof.Gen.KernelIdeal
import proofs.«178085_j44049184588188_1_alg».proof.Proof.Gen.KernelIdeal.Frame
import proofs.«178085_j44049184588188_1_alg».proof.Proof.Gen.ReferenceIdeal
import proofs.«178085_j44049184588188_1_alg».proof.Proof.Gen.Pre_finite_inputs
import proofs.«178085_j44049184588188_1_alg».proof.Proof.Gen.ReferenceIdeal.Run
import proofs.«178085_j44049184588188_1_alg».proof.Proof.KernelRun
import proofs.«178085_j44049184588188_1_alg».proof.Proof.RefLayers
import proofs.«178085_j44049184588188_1_alg».proof.Proof.Chain
import Idealize.ShloMosaic.Adequacy
import Idealize.ShloMosaic.Init

noncomputable section

namespace Cert.Proof

open Idealize.ShloMosaic Idealize.ShloMosaic.TcCoe Idealize.SL.Sem
open Cert.ReferenceIdeal.Layers (network sources targets edgeWeight)

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run: the result array ends at the network of the arguments, the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v76)
        = network (m ((c.tc : Thread Cert.KernelIdeal.nD Cert.KernelIdeal.τ).loc Cert.KernelIdeal.main_arg0))
            (sources (m ((c.tc : Thread Cert.KernelIdeal.nD Cert.KernelIdeal.τ).loc Cert.KernelIdeal.main_arg1)))
            (targets (m ((c.tc : Thread Cert.KernelIdeal.nD Cert.KernelIdeal.τ).loc Cert.KernelIdeal.main_arg1)))
            (edgeWeight (sources (m ((c.tc : Thread Cert.KernelIdeal.nD Cert.KernelIdeal.τ).loc Cert.KernelIdeal.main_arg1)))
              (targets (m ((c.tc : Thread Cert.KernelIdeal.nD Cert.KernelIdeal.τ).loc Cert.KernelIdeal.main_arg1))))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c).1.trans (Cert.KernelIdeal.Layer.result_eq m ρ c), (h c).2⟩)
    (Cert.KernelIdeal.Layer.run_result (F := Ideal) m ρ)

/-- From memories that agree on the arguments both programs end with the network of the arguments: the kernel by its run
    read boundary by boundary, the reference by its run read layer by layer. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  refine (Cert.ReferenceIdeal.Layers.res_out0_eq m' c).trans ?_
  rw [g0, g1, g2, g3, g4, g5, g6, g7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
